-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S5000x64 : Shape := ⟨2, ![5000, 64]⟩
abbrev S100000x1 : Shape := ⟨2, ![100000, 1]⟩
abbrev S1200000x64 : Shape := ⟨2, ![1200000, 64]⟩
abbrev S1x64 : Shape := ⟨2, ![1, 64]⟩
abbrev S5000x1 : Shape := ⟨2, ![5000, 1]⟩
abbrev S64x128 : Shape := ⟨2, ![64, 128]⟩

abbrev nBuf : Space → Nat
  | .hbm => 70
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x64, .f32⟩
  | .hbm, ⟨22, _⟩ => ⟨S100000x1, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S100000x1, .f32⟩
  | .hbm, ⟨39, _⟩ => ⟨S1x64, .f32⟩
  | .hbm, ⟨40, _⟩ => ⟨S100000x64, .f32⟩
  | .hbm, ⟨41, _⟩ => ⟨S_, .f32⟩
  | .hbm, ⟨42, _⟩ => ⟨S64x64, .f32⟩
  | .hbm, ⟨43, _⟩ => ⟨S100000x1, .i32⟩
  | .hbm, ⟨44, _⟩ => ⟨S64x64, .f32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S100000x1, .f32⟩
  | .hbm, ⟨63, _⟩ => ⟨S1x64, .f32⟩
  | .hbm, ⟨64, _⟩ => ⟨S100000x64, .f32⟩
  | .hbm, ⟨65, _⟩ => ⟨S_, .f32⟩
  | .hbm, ⟨66, _⟩ => ⟨S64x64, .f32⟩
  | .hbm, ⟨67, _⟩ => ⟨S100000x1, .i32⟩
  | .hbm, ⟨68, _⟩ => ⟨S64x64, .f32⟩
  | .hbm, ⟨69, _⟩ => ⟨S64x128, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  concatenates_S64x64_S64x64_S64x128_d1 : Shape.Concatenates [S64x64, S64x64] S64x128 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S64x64_S100000x1_S100000x64_1_0_0_1_wf : ScatterDims.WF S64x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v31) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S64x128 : Shape := ⟨2, ![64, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000, .f32⟩
  | .hbm, ⟨40, _⟩ => ⟨S1200000, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S1200000x1, .f32⟩
  | .hbm, ⟨51, _⟩ => ⟨S1200000x64, .f32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64x64, .f32⟩
  | .hbm, ⟨70, _⟩ => ⟨S100000x1, .i32⟩
  | .hbm, ⟨71, _⟩ => ⟨S64x64, .f32⟩
  | .hbm, ⟨72, _⟩ => ⟨S100000x64, .f32⟩
  | .hbm, ⟨73, _⟩ => ⟨S_, .i32⟩
  | .hbm, ⟨74, _⟩ => ⟨S1200000, .i32⟩
  | .hbm, ⟨75, _⟩ => ⟨S1200000, .i1⟩
  | .hbm, ⟨76, _⟩ => ⟨S_, .i32⟩
  | .hbm, ⟨77, _⟩ => ⟨S1200000, .i32⟩
  | .hbm, ⟨78, _⟩ => ⟨S1200000, .i32⟩
  | .hbm, ⟨79, _⟩ => ⟨S1200000, .i32⟩
  | .hbm, ⟨80, _⟩ => ⟨S1200000x1, .i32⟩
  | .hbm, ⟨81, _⟩ => ⟨S1200000, .f32⟩
  | .hbm, ⟨82, _⟩ => ⟨S_, .i32⟩
  | .hbm, ⟨83, _⟩ => ⟨S1200000, .i32⟩
  | .hbm, ⟨84, _⟩ => ⟨S1200000, .i1⟩
  | .hbm, ⟨85, _⟩ => ⟨S_, .i32⟩
  | .hbm, ⟨86, _⟩ => ⟨S1200000, .i32⟩
  | .hbm, ⟨87, _⟩ => ⟨S1200000, .i32⟩
  | .hbm, ⟨88, _⟩ => ⟨S1200000, .i32⟩
  | .hbm, ⟨89, _⟩ => ⟨S1200000x1, .i32⟩
  | .hbm, ⟨90, _⟩ => ⟨S1200000, .f32⟩
  | .hbm, ⟨91, _⟩ => ⟨S1200000, .f32⟩
  | .hbm, ⟨92, _⟩ => ⟨S_, .i32⟩
  | .hbm, ⟨93, _⟩ => ⟨S1200000, .i32⟩
  | .hbm, ⟨94, _⟩ => ⟨S1200000, .i1⟩
  | .hbm, ⟨95, _⟩ => ⟨S_, .i32⟩
  | .hbm, ⟨96, _⟩ => ⟨S1200000, .i32⟩
  | .hbm, ⟨97, _⟩ => ⟨S1200000, .i32⟩
  | .hbm, ⟨98, _⟩ => ⟨S1200000, .i32⟩
  | .hbm, ⟨99, _⟩ => ⟨S1200000x1, .i32⟩
  | .hbm, ⟨100, _⟩ => ⟨S1200000x64, .f32⟩
  | .hbm, ⟨101, _⟩ => ⟨S1200000x1, .f32⟩
  | .hbm, ⟨102, _⟩ => ⟨S1200000x64, .f32⟩
  | .hbm, ⟨103, _⟩ => ⟨S1200000x64, .f32⟩
  | .hbm, ⟨104, _⟩ => ⟨S_, .f32⟩
  | .hbm, ⟨105, _⟩ => ⟨S100000x64, .f32⟩
  | .hbm, ⟨106, _⟩ => ⟨S1200000x1, .i32⟩
  | .hbm, ⟨107, _⟩ => ⟨S100000x64, .f32⟩
  | .hbm, ⟨108, _⟩ => ⟨S100000, .f32⟩
  | .hbm, ⟨109, _⟩ => ⟨S100000x1, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S64x64, .f32⟩
  | .hbm, ⟨121, _⟩ => ⟨S100000x1, .i32⟩
  | .hbm, ⟨122, _⟩ => ⟨S64x64, .f32⟩
  | .hbm, ⟨123, _⟩ => ⟨S64x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call1_cst : Ref sig .tc := ⟨.hbm, 116, rfl⟩
abbrev main_call1_v0 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  concatenates_S64x64_S64x64_S64x128_d1 : Shape.Concatenates [S64x64, S64x64] S64x128 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S64x64_S100000x1_S100000x64_1_0_0_1_wf : ScatterDims.WF S64x64 S100000x1 S100000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.KernelRun.lean ====
/-
  The idealized kernel program's run with its two results NAMED.

  The program is nine segments: five stretches of host operations and, between them, four regions. The generated
  frame folds the buffer contents through the segments (`Gen.W0` … `Gen.W9`: a stretch applies its operations, a
  region leaves its arrays at what its write-backs leave) and shows that every weakly fair execution terminates with
  every unscoped buffer at the last fold `Gen.W9`. Stated here is that run with the two result buffers read at that
  fold, beside the arguments, which end as launched.
-/
import proofs.«129485_j137438953659_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the last fold's contents and
    the arguments as launched. -/
theorem run_named : θ_run defs (onTc (τ := τ) (main (F := F))) ⟨m, fun _ => 0, ρ⟩ (fun r => ∀ c : Dev nD,
      r.2.mem ((c.tc : Thread nD τ).loc main_v47) = W9 m ρ c (Proc.devRef .tc main_v47)
      ∧ r.2.mem ((c.tc : Thread nD τ).loc main_v51) = W9 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v47 (by decide)),
       h c _ (mem_uc main_v51 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.Spec.lean ====
/-
  The two dense pieces of a graph-convolution layer over 100000 nodes of width 64, as whole-array functions of
  extended reals, entry by entry.

  * `mm X W` is the matrix product: entry `(r, c)` is the sum over `k` of `X (r, k) * W (k, c)`.
  * `comb h agg d b` finishes a layer from the projected features `h`, the neighbour sum `agg` (each neighbour's
    row already scaled by that neighbour's inverse square-root degree), the column `d` of inverse square-root
    degrees and the bias row `b`: entry `(r, c)` is
    `max (agg (r, c) * d r + h (r, c) * (d r * d r) + b c) 0`,
    the neighbour term scaled by the node's own factor, the self loop scaled by its square, the bias, and the
    rectifier.
-/
import Idealize.ShloMosaic.PureOps.Ideal
import Idealize.ShloMosaic.Lib.ValueIdx

noncomputable section

namespace Cert.Gcn

open Idealize.ShloMosaic Idealize.ShloMosaic.ValueIdx
open scoped BigOperators

/-- Node features: 100000 rows of width 64. -/
abbrev SND : Shape := ⟨2, ![100000, 64]⟩
/-- A weight matrix. -/
abbrev SDD : Shape := ⟨2, ![64, 64]⟩
/-- One value per node, as a column. -/
abbrev SN1 : Shape := ⟨2, ![100000, 1]⟩
/-- One value per feature, as a row. -/
abbrev S1D : Shape := ⟨2, ![1, 64]⟩

/-- Entry `(r, c)` of the product `X · W`. -/
def mmAt (X : SND.Idx → EReal) (W : SDD.Idx → EReal) (r : Fin 100000) (c : Fin 64) : EReal :=
  ∑ k : Fin 64, X (ix2 r k) * W (ix2 k c)

/-- The product `X · W`. -/
def mm (X : SND.Idx → EReal) (W : SDD.Idx → EReal) : SND.Idx → EReal :=
  fun i => mmAt X W ⟨(i 0).val, idx2_lt0 i⟩ ⟨(i 1).val, idx2_lt1 i⟩

theorem mm_apply (X : SND.Idx → EReal) (W : SDD.Idx → EReal) (r : Fin 100000) (c : Fin 64) :
    mm X W (ix2 r c) = mmAt X W r c := rfl

/-- Entry `(r, c)` of a finished layer. -/
def combAt (h agg : SND.Idx → EReal) (d : SN1.Idx → EReal) (b : S1D.Idx → EReal) (r : Fin 100000) (c : Fin 64) : EReal :=
  max (agg (ix2 r c) * d (ix2 r (0 : Fin 1)) + h (ix2 r c) * (d (ix2 r (0 : Fin 1)) * d (ix2 r (0 : Fin 1)))
    + b (ix2 (0 : Fin 1) c)) 0

/-- A finished layer. -/
def comb (h agg : SND.Idx → EReal) (d : SN1.Idx → EReal) (b : S1D.Idx → EReal) : SND.Idx → EReal :=
  fun i => combAt h agg d b ⟨(i 0).val, idx2_lt0 i⟩ ⟨(i 1).val, idx2_lt1 i⟩

theorem comb_apply (h agg : SND.Idx → EReal) (d : SN1.Idx → EReal) (b : S1D.Idx → EReal) (r : Fin 100000) (c : Fin 64) :
    comb h agg d b (ix2 r c) = combAt h agg d b r c := rfl

end Cert.Gcn

end
-- ==== Proof.RegionMatmul.lean ====
/-
  The two matrix-product regions, each as ONE function of the arrays it finds at entry.

  A region walks 20 grid points; point `t` fetches rows `[5000 t, 5000 t + 5000)` of the left operand and the whole
  64 x 64 right operand, multiplies them into a zero accumulator, and writes the product back to the same rows of
  the result. Row `r` of the result therefore depends on row `r` of the left operand only, the blocks tile the
  100000 rows, and the result array after the region is the matrix product of the two arrays as the region found
  them, entry by entry: `Cert.Gcn.mm`.
-/
import proofs.«129485_j137438953659_2_alg».proof.Proof.Gen.KernelIdeal.Frame
import proofs.«129485_j137438953659_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionMatmul

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets of a whole-block access. -/
theorem hz : (![0, 0] : Fin 2 → Nat) = fun _ => 0 := funext fun a => by fin_cases a <;> rfl

/-! ## The product of a block of rows with the weight matrix -/

/-- The left operand is read at the output's row, -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and at the contraction index as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand is read at the contraction index as its row, -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and at the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(p, q)` of a block of rows times the weight matrix, accumulated into zero: the sum over `k` of
    the products of row `p` of the block with column `q` of the matrix. -/
theorem matmul_zero_apply (x0 : FVec Ideal S5000x64 .f32) (x1 : FVec Ideal S64x64 .f32) (p : Fin 5000) (q : Fin 64) :
    matmul (F := Ideal) dot_S5000x64_S64x64_S5000x64_1_0_0_1_n_n none x0 x1 (constant (F := Ideal) S5000x64 .f32 0x00000000#32) (ix2 p q)
      = ∑ k : Fin 64, x0 (ix2 p k) * x1 (ix2 k q) := by
  refine (Ideal.matmul_constant_zero_apply dot_S5000x64_S64x64_S5000x64_1_0_0_1_n_n none x0 x1 (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The first region's payload at an entry. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) :=
  matmul_zero_apply x0 x1 p q

/-- The second region's payload at an entry: the cast of the block to its own shape changes nothing. -/
theorem pay2_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact matmul_zero_apply x0 x1 p q

variable (V : (c : Dev nD) → (b : Ref sig .tc) → Buf (Elt Ideal) ((c : Thread nD τ).loc b))

/-! ## The first product region -/

/-- The block index of every window of the first region at every point: the row-blocked windows sit at
    `(t, 0)`, the weight matrix at `(0, 0)`. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `5000 t + p` of the array. -/
theorem lhs_block0 (c : Dev nD) (t : Fin cfg0.N) (p : Fin 5000) (k : Fin 64) (r : Fin 100000) (hr : r.val = 5000 * t.val + p.val) :
    (iblk0 (F := Ideal) V c 0 t : Vec Ideal S5000x64 .f32) (ix2 p k) = (V c main_arg0 : Cert.Gcn.SND.Idx → EReal) (ix2 r k) := by
  obtain ⟨e0, e1, -, -, -, -⟩ := index_facts0 t
  show (V c main_arg0 : Cert.Gcn.SND.Idx → EReal) (((cfg0.win 0).blk t).view.emb (ix2 p k)) = _
  refine congrArg (V c main_arg0 : Cert.Gcn.SND.Idx → EReal) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The right operand's block at every point is the whole weight matrix. -/
theorem rhs_block0 (c : Dev nD) (t : Fin cfg0.N) (k : Fin 64) (q : Fin 64) :
    (iblk0 (F := Ideal) V c 1 t : Vec Ideal S64x64 .f32) (ix2 k q) = (V c main_arg3 : Cert.Gcn.SDD.Idx → EReal) (ix2 k q) := by
  obtain ⟨-, -, e2, e3, -, -⟩ := index_facts0 t
  show (V c main_arg3 : Cert.Gcn.SDD.Idx → EReal) (((cfg0.win 1).blk t).view.emb (ix2 k q)) = _
  refine congrArg (V c main_arg3 : Cert.Gcn.SDD.Idx → EReal) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- What point `t` writes back is block `t` of the product of the two arrays as the region found them. -/
theorem flushed0 (c : Dev nD) (t : Fin cfg0.N) :
    (dat0 (F := Ideal) V c).flushed 2 t
      = ((cfg0.win 2).blk t).view.read (Elt Ideal) (Cert.Gcn.mm (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨-, -, -, -, e4, e5⟩ := index_facts0 t
  have hN : grid0.N = 20 := N_0
  have ht : t.val < 20 := by have h : t.val < grid0.N := t.isLt; omega
  refine funext fun (j : S5000x64.Idx) => ?_
  obtain ⟨p, q, rfl⟩ : ∃ (p : Fin 5000) (q : Fin 64), j = ix2 p q := ⟨j 0, j 1, eq_ix2 j⟩
  have hemb : ((cfg0.win 2).blk t).view.emb (ix2 p q) = (ix2 (⟨5000 * t.val + p.val, by omega⟩ : Fin 100000) q : Cert.Gcn.SND.Idx) :=
    funext fun a => Fin.ext (by
      match a with
      | ⟨0, _⟩ => show win0_2.index t (0 : Fin 2) * 5000 + 1 * p.val = 5000 * t.val + p.val; omega
      | ⟨1, _⟩ => show win0_2.index t (1 : Fin 2) * 64 + 1 * q.val = q.val; omega)
  show k0_pay1 (F := Ideal) (iblk0 V c 0 t) (iblk0 V c 1 t) (ix2 p q)
    = Cert.Gcn.mm (V c main_arg0) (V c main_arg3) (((cfg0.win 2).blk t).view.emb (ix2 p q))
  rw [hemb, Cert.Gcn.mm_apply]
  refine (pay0_apply (iblk0 V c 0 t) (iblk0 V c 1 t) p q).trans ?_
  unfold Cert.Gcn.mmAt
  refine Finset.sum_congr rfl fun k _ => ?_
  rw [lhs_block0 V c t p k ⟨5000 * t.val + p.val, by omega⟩ rfl, rhs_block0 V c t k q]

/-- An index of the result array is in point `t`'s block iff each coordinate is in the block's range on its axis. -/
theorem mem_block0 (t : Fin cfg0.N) (i : Cert.Gcn.SND.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- The twenty blocks of 5000 rows tile the result array: row `r` is in the block of point `r / 5000`. -/
theorem cover0 (i : Cert.Gcn.SND.Idx) :
    ∃ t : Fin cfg0.N, (cfg0.win 2).flush t = true ∧ i ∈ ((cfg0.win 2).blk t).view.set := by
  have hN : grid0.N = 20 := N_0
  have hi0 : (i 0).val < 100000 := idx2_lt0 i
  have hi1 : (i 1).val < 64 := idx2_lt1 i
  obtain ⟨t, ht⟩ : ∃ t : Fin cfg0.N, t.val = (i 0).val / 5000 := ⟨⟨(i 0).val / 5000, by show (i 0).val / 5000 < grid0.N; omega⟩, rfl⟩
  obtain ⟨-, -, -, -, e4, e5⟩ := index_facts0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the first product region its result array is the product of the arrays it found. -/
theorem mm0_final (c : Dev nD) :
    (dat0 (F := Ideal) V c).arrAt 2 cfg0.N = Cert.Gcn.mm (V c main_arg0) (V c main_arg3) :=
  (dat0 (F := Ideal) V c).arrAt_eq_of_cover 2 (Cert.Gcn.mm (V c main_arg0) (V c main_arg3)) (fun t _ => flushed0 V c t) (fun i => cover0 i)

/-! ## The second product region -/

/-- The block index of every window of the second region at every point: the row-blocked windows sit at
    `(t, 0)`, the weight matrix at `(0, 0)`. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the left operand's block at point `t` is row `5000 t + p` of the array. -/
theorem lhs_block2 (c : Dev nD) (t : Fin cfg2.N) (p : Fin 5000) (k : Fin 64) (r : Fin 100000) (hr : r.val = 5000 * t.val + p.val) :
    (iblk2 (F := Ideal) V c 0 t : Vec Ideal S5000x64 .f32) (ix2 p k) = (V c main_v27 : Cert.Gcn.SND.Idx → EReal) (ix2 r k) := by
  obtain ⟨e0, e1, -, -, -, -⟩ := index_facts2 t
  show (V c main_v27 : Cert.Gcn.SND.Idx → EReal) (((cfg2.win 0).blk t).view.emb (ix2 p k)) = _
  refine congrArg (V c main_v27 : Cert.Gcn.SND.Idx → EReal) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The right operand's block at every point is the whole weight matrix. -/
theorem rhs_block2 (c : Dev nD) (t : Fin cfg2.N) (k : Fin 64) (q : Fin 64) :
    (iblk2 (F := Ideal) V c 1 t : Vec Ideal S64x64 .f32) (ix2 k q) = (V c main_arg5 : Cert.Gcn.SDD.Idx → EReal) (ix2 k q) := by
  obtain ⟨-, -, e2, e3, -, -⟩ := index_facts2 t
  show (V c main_arg5 : Cert.Gcn.SDD.Idx → EReal) (((cfg2.win 1).blk t).view.emb (ix2 k q)) = _
  refine congrArg (V c main_arg5 : Cert.Gcn.SDD.Idx → EReal) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- What point `t` writes back is block `t` of the product of the two arrays as the region found them. -/
theorem flushed2 (c : Dev nD) (t : Fin cfg2.N) :
    (dat2 (F := Ideal) V c).flushed 2 t
      = ((cfg2.win 2).blk t).view.read (Elt Ideal) (Cert.Gcn.mm (V c main_v27) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e4, e5⟩ := index_facts2 t
  have hN : grid2.N = 20 := N_2
  have ht : t.val < 20 := by have h : t.val < grid2.N := t.isLt; omega
  refine funext fun (j : S5000x64.Idx) => ?_
  obtain ⟨p, q, rfl⟩ : ∃ (p : Fin 5000) (q : Fin 64), j = ix2 p q := ⟨j 0, j 1, eq_ix2 j⟩
  have hemb : ((cfg2.win 2).blk t).view.emb (ix2 p q) = (ix2 (⟨5000 * t.val + p.val, by omega⟩ : Fin 100000) q : Cert.Gcn.SND.Idx) :=
    funext fun a => Fin.ext (by
      match a with
      | ⟨0, _⟩ => show win2_2.index t (0 : Fin 2) * 5000 + 1 * p.val = 5000 * t.val + p.val; omega
      | ⟨1, _⟩ => show win2_2.index t (1 : Fin 2) * 64 + 1 * q.val = q.val; omega)
  show k2_pay1 (F := Ideal) (iblk2 V c 0 t) (iblk2 V c 1 t) (ix2 p q)
    = Cert.Gcn.mm (V c main_v27) (V c main_arg5) (((cfg2.win 2).blk t).view.emb (ix2 p q))
  rw [hemb, Cert.Gcn.mm_apply]
  refine (pay2_apply (iblk2 V c 0 t) (iblk2 V c 1 t) p q).trans ?_
  unfold Cert.Gcn.mmAt
  refine Finset.sum_congr rfl fun k _ => ?_
  rw [lhs_block2 V c t p k ⟨5000 * t.val + p.val, by omega⟩ rfl, rhs_block2 V c t k q]

/-- An index of the result array is in point `t`'s block iff each coordinate is in the block's range on its axis. -/
theorem mem_block2 (t : Fin cfg2.N) (i : Cert.Gcn.SND.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v31).slice (win2_2.rect t)).set ↔ _
  rw [View.set_slice_whole, Rect.mem_set_unit]
  exact Iff.rfl

/-- The twenty blocks of 5000 rows tile the result array: row `r` is in the block of point `r / 5000`. -/
theorem cover2 (i : Cert.Gcn.SND.Idx) :
    ∃ t : Fin cfg2.N, (cfg2.win 2).flush t = true ∧ i ∈ ((cfg2.win 2).blk t).view.set := by
  have hN : grid2.N = 20 := N_2
  have hi0 : (i 0).val < 100000 := idx2_lt0 i
  have hi1 : (i 1).val < 64 := idx2_lt1 i
  obtain ⟨t, ht⟩ : ∃ t : Fin cfg2.N, t.val = (i 0).val / 5000 := ⟨⟨(i 0).val / 5000, by show (i 0).val / 5000 < grid2.N; omega⟩, rfl⟩
  obtain ⟨-, -, -, -, e4, e5⟩ := index_facts2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the second product region its result array is the product of the arrays it found. -/
theorem mm2_final (c : Dev nD) :
    (dat2 (F := Ideal) V c).arrAt 2 cfg2.N = Cert.Gcn.mm (V c main_v27) (V c main_arg5) :=
  (dat2 (F := Ideal) V c).arrAt_eq_of_cover 2 (Cert.Gcn.mm (V c main_v27) (V c main_arg5)) (fun t _ => flushed2 V c t) (fun i => cover2 i)

end Cert.KernelIdeal.RegionMatmul

end
-- ==== Proof.RegionCombine.lean ====
/-
  The two combine regions, each as ONE function of the arrays it finds at entry.

  A region walks 20 grid points; point `t` fetches rows `[5000 t, 5000 t + 5000)` of the projected features, of the
  neighbour sums and of the column of inverse square-root degrees, and the whole bias row, and writes back to the
  same rows of the result `max (agg * d + h * (d * d) + b) 0`, the column `d` and the row `b` broadcast across the
  block. Every entry depends on its own row and column only, the blocks tile the 100000 rows, and the result array
  after the region is `Cert.Gcn.comb` of the arrays as the region found them.
-/
import proofs.«129485_j137438953659_2_alg».proof.Proof.Gen.KernelIdeal.Frame
import proofs.«129485_j137438953659_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionCombine

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## What both regions share -/

/-- The zero offsets, as the function the library's lemmas ask for. -/
theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of point `t`'s block is row `5000 t + p` of the array, below 100000. -/
theorem row_lt (t : ℕ) (ht : t < 20) (p : Fin 5000) : t * 5000 + p.val < 100000 := by
  have := p.isLt; omega

/-- Entry `(p, q)` of the first region's payload: the neighbour term scaled by the row's factor, the self term by its
    square, the bias of the column, and the rectifier. -/
theorem pay1_apply (d : Vec Ideal S5000x1 .f32) (a h : Vec Ideal S5000x64 .f32) (b : Vec Ideal S1x64 .f32)
    (p : Fin 5000) (q : Fin 64) :
    k1_pay1 d a h b (ix2 p q)
      = max (a (ix2 p q) * d (ix2 p (0 : Fin 1)) + h (ix2 p q) * (d (ix2 p (0 : Fin 1)) * d (ix2 p (0 : Fin 1)))
          + b (ix2 (0 : Fin 1) q)) 0 := by
  unfold k1_pay1
  simp only [shapeCast_self]
  rw [maximumf_apply, addf_apply, addf_apply, mulf_apply, mulf_apply, broadcast_apply]
  rw [broadcastTo_a1_ab_apply, broadcastTo_a1_ab_apply, broadcastTo_1b_ab_apply, mulf_apply]
  show max _ (Ideal.ofBits .f32 0x00000000#32) = _
  rw [Ideal.ofBits_zero_f32]

/-- Entry `(p, q)` of the second region's payload: the neighbour term scaled by the row's factor, the self term by its
    square, the bias of the column, and the rectifier. -/
theorem pay3_apply (d : Vec Ideal S5000x1 .f32) (a h : Vec Ideal S5000x64 .f32) (b : Vec Ideal S1x64 .f32)
    (p : Fin 5000) (q : Fin 64) :
    k3_pay1 d a h b (ix2 p q)
      = max (a (ix2 p q) * d (ix2 p (0 : Fin 1)) + h (ix2 p q) * (d (ix2 p (0 : Fin 1)) * d (ix2 p (0 : Fin 1)))
          + b (ix2 (0 : Fin 1) q)) 0 := by
  unfold k3_pay1
  simp only [shapeCast_self]
  rw [maximumf_apply, addf_apply, addf_apply, mulf_apply, mulf_apply, broadcast_apply]
  rw [broadcastTo_a1_ab_apply, broadcastTo_a1_ab_apply, broadcastTo_1b_ab_apply, mulf_apply]
  show max _ (Ideal.ofBits .f32 0x00000000#32) = _
  rw [Ideal.ofBits_zero_f32]

variable (V : (c : Dev nD) → (b : Ref sig .tc) → Buf (Elt Ideal) ((c : Thread nD τ).loc b))

/-! ## The first combine region -/

/-- The printed index maps, decided once over the grid: the row-blocked windows are at block `(t, 0)`, the bias row at `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A point is below 20. -/
theorem lt1 (t : Fin cfg1.N) : t.val < 20 := by
  have h := t.isLt
  have hN : grid1.N = 20 := N_1
  show t.val < 20
  exact hN ▸ h

/-- The block of the projected features at point `t` reads rows `5000 t …` of the array. -/
theorem blk1_0_apply (c : Dev nD) (t : Fin cfg1.N) (p : Fin 5000) (q : Fin 64) :
    iblk1 (F := Ideal) V c 0 t (ix2 p q) = V c main_v11 (ix2 ⟨t.val * 5000 + p.val, row_lt t.val (lt1 t) p⟩ q) := by
  show V c main_v11 (((cfg1.win 0).blk t).view.emb (ix2 p q)) = _
  obtain ⟨e00, e01, e10, e11, e20, e21, e30, e31, e40, e41⟩ := idx_facts1 t
  congr 1
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- A result entry from the blocks' entries: when the blocks read row `r` of the arrays at row `p`, entry `(p, q)` of the
    payload is entry `(r, q)` of the finished layer. -/
theorem comb_of_blocks1 (H A : Cert.Gcn.SND.Idx → EReal) (D : Cert.Gcn.SN1.Idx → EReal) (B : Cert.Gcn.S1D.Idx → EReal)
    (d : Vec Ideal S5000x1 .f32) (a h : Vec Ideal S5000x64 .f32) (b : Vec Ideal S1x64 .f32)
    (r : Fin 100000) (p : Fin 5000) (q : Fin 64)
    (hh : h (ix2 p q) = H (ix2 r q)) (ha : a (ix2 p q) = A (ix2 r q))
    (hd : d (ix2 p (0 : Fin 1)) = D (ix2 r (0 : Fin 1))) (hb : b (ix2 (0 : Fin 1) q) = B (ix2 (0 : Fin 1) q)) :
    k1_pay1 d a h b (ix2 p q) = Cert.Gcn.comb H A D B (ix2 r q) := by
  rw [pay1_apply, Cert.Gcn.comb_apply, hh, ha, hd, hb]
  rfl

/-- The block of the neighbour sums at point `t` reads the same rows. -/
theorem blk1_1_apply (c : Dev nD) (t : Fin cfg1.N) (p : Fin 5000) (q : Fin 64) :
    iblk1 (F := Ideal) V c 1 t (ix2 p q) = V c main_v24 (ix2 ⟨t.val * 5000 + p.val, row_lt t.val (lt1 t) p⟩ q) := by
  show V c main_v24 (((cfg1.win 1).blk t).view.emb (ix2 p q)) = _
  obtain ⟨e00, e01, e10, e11, e20, e21, e30, e31, e40, e41⟩ := idx_facts1 t
  congr 1
  funext a; apply Fin.ext
  match a with
  | ⟨0, _⟩ => show win1_1.index t (0 : Fin 2) * 5000 + 1 * p.val = t.val * 5000 + p.val; omega
  | ⟨1, _⟩ => show win1_1.index t (1 : Fin 2) * 64 + 1 * q.val = q.val; omega

/-- The block of the degree column at point `t` reads the same rows of the column. -/
theorem blk1_2_apply (c : Dev nD) (t : Fin cfg1.N) (p : Fin 5000) :
    iblk1 (F := Ideal) V c 2 t (ix2 p (0 : Fin 1))
      = V c main_v25 (ix2 ⟨t.val * 5000 + p.val, row_lt t.val (lt1 t) p⟩ (0 : Fin 1)) := by
  show V c main_v25 (((cfg1.win 2).blk t).view.emb (ix2 p (0 : Fin 1))) = _
  obtain ⟨e00, e01, e10, e11, e20, e21, e30, e31, e40, e41⟩ := idx_facts1 t
  congr 1
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega

/-- The block of the bias row at every point is the whole row. -/
theorem blk1_3_apply (c : Dev nD) (t : Fin cfg1.N) (q : Fin 64) :
    iblk1 (F := Ideal) V c 3 t (ix2 (0 : Fin 1) q) = V c main_v26 (ix2 (0 : Fin 1) q) := by
  show V c main_v26 (((cfg1.win 3).blk t).view.emb (ix2 (0 : Fin 1) q)) = _
  obtain ⟨e00, e01, e10, e11, e20, e21, e30, e31, e40, e41⟩ := idx_facts1 t
  congr 1
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Entry `(p, q)` of point `t`'s result block sits at row `5000 t + p`, column `q` of the result array. -/
theorem emb1_4_apply (t : Fin cfg1.N) (p : Fin 5000) (q : Fin 64) :
    ((cfg1.win 4).blk t).view.emb (ix2 p q) = ix2 ⟨t.val * 5000 + p.val, row_lt t.val (lt1 t) p⟩ q := by
  obtain ⟨e00, e01, e10, e11, e20, e21, e30, e31, e40, e41⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- WHAT POINT `t` WRITES BACK is block `t` of the finished layer of the arrays as the region finds them. -/
theorem flushed1_eq (c : Dev nD) (t : Fin cfg1.N) :
    (dat1 (F := Ideal) V c).flushed 4 t
      = ((cfg1.win 4).blk t).view.read (Elt Ideal)
          (Cert.Gcn.comb (V c main_v11) (V c main_v24) (V c main_v25) (V c main_v26)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  have key : ∀ j : S5000x64.Idx,
      k1_pay1 (iblk1 V c 2 t) (iblk1 V c 1 t) (iblk1 V c 0 t) (iblk1 V c 3 t) j
        = Cert.Gcn.comb (V c main_v11) (V c main_v24) (V c main_v25) (V c main_v26) (((cfg1.win 4).blk t).view.emb j) := by
    intro j
    obtain ⟨p, q, rfl⟩ : ∃ (p : Fin 5000) (q : Fin 64), j = ix2 p q := ⟨j 0, j 1, eq_ix2 j⟩
    exact (comb_of_blocks1 (V c main_v11) (V c main_v24) (V c main_v25) (V c main_v26) _ _ _ _
      ⟨t.val * 5000 + p.val, row_lt t.val (lt1 t) p⟩ p q
      (blk1_0_apply V c t p q) (blk1_1_apply V c t p q) (blk1_2_apply V c t p) (blk1_3_apply V c t q)).trans
      (congrArg _ (emb1_4_apply t p q).symm)
  exact funext key

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v27).slice (win1_4.rect t)).set ↔ _
  rw [View.set_slice_whole, Rect.mem_set_unit]
  exact Iff.rfl

/-- The blocks tile the rows: row `r` is in the block of point `r / 5000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; rw [hN]; omega
  obtain ⟨t, htv⟩ : ∃ t : Fin cfg1.N, t.val = (i 0).val / 5000 := ⟨⟨(i 0).val / 5000, ht⟩, rfl⟩
  obtain ⟨e00, e01, e10, e11, e20, e21, e30, e31, e40, e41⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- After the first combine region its result array is the finished layer of the arrays it found. -/
theorem comb1_final (c : Dev nD) :
    (dat1 (F := Ideal) V c).arrAt 4 cfg1.N = Cert.Gcn.comb (V c main_v11) (V c main_v24) (V c main_v25) (V c main_v26) :=
  (dat1 (F := Ideal) V c).arrAt_eq_of_cover 4 (Cert.Gcn.comb (V c main_v11) (V c main_v24) (V c main_v25) (V c main_v26))
    (fun t _ => flushed1_eq V c t) cover1

/-! ## The second combine region -/

/-- The printed index maps, decided once over the grid: the row-blocked windows are at block `(t, 0)`, the bias row at `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A point is below 20. -/
theorem lt3 (t : Fin cfg3.N) : t.val < 20 := by
  have h := t.isLt
  have hN : grid3.N = 20 := N_3
  show t.val < 20
  exact hN ▸ h

/-- The block of the projected features at point `t` reads rows `5000 t …` of the array. -/
theorem blk3_0_apply (c : Dev nD) (t : Fin cfg3.N) (p : Fin 5000) (q : Fin 64) :
    iblk3 (F := Ideal) V c 0 t (ix2 p q) = V c main_v31 (ix2 ⟨t.val * 5000 + p.val, row_lt t.val (lt3 t) p⟩ q) := by
  show V c main_v31 (((cfg3.win 0).blk t).view.emb (ix2 p q)) = _
  obtain ⟨e00, e01, e10, e11, e20, e21, e30, e31, e40, e41⟩ := idx_facts3 t
  congr 1
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

/-- A result entry from the blocks' entries: when the blocks read row `r` of the arrays at row `p`, entry `(p, q)` of the
    payload is entry `(r, q)` of the finished layer. -/
theorem comb_of_blocks3 (H A : Cert.Gcn.SND.Idx → EReal) (D : Cert.Gcn.SN1.Idx → EReal) (B : Cert.Gcn.S1D.Idx → EReal)
    (d : Vec Ideal S5000x1 .f32) (a h : Vec Ideal S5000x64 .f32) (b : Vec Ideal S1x64 .f32)
    (r : Fin 100000) (p : Fin 5000) (q : Fin 64)
    (hh : h (ix2 p q) = H (ix2 r q)) (ha : a (ix2 p q) = A (ix2 r q))
    (hd : d (ix2 p (0 : Fin 1)) = D (ix2 r (0 : Fin 1))) (hb : b (ix2 (0 : Fin 1) q) = B (ix2 (0 : Fin 1) q)) :
    k3_pay1 d a h b (ix2 p q) = Cert.Gcn.comb H A D B (ix2 r q) := by
  rw [pay3_apply, Cert.Gcn.comb_apply, hh, ha, hd, hb]
  rfl

/-- The block of the neighbour sums at point `t` reads the same rows. -/
theorem blk3_1_apply (c : Dev nD) (t : Fin cfg3.N) (p : Fin 5000) (q : Fin 64) :
    iblk3 (F := Ideal) V c 1 t (ix2 p q) = V c main_v44 (ix2 ⟨t.val * 5000 + p.val, row_lt t.val (lt3 t) p⟩ q) := by
  show V c main_v44 (((cfg3.win 1).blk t).view.emb (ix2 p q)) = _
  obtain ⟨e00, e01, e10, e11, e20, e21, e30, e31, e40, e41⟩ := idx_facts3 t
  congr 1
  funext a; apply Fin.ext
  match a with
  | ⟨0, _⟩ => show win3_1.index t (0 : Fin 2) * 5000 + 1 * p.val = t.val * 5000 + p.val; omega
  | ⟨1, _⟩ => show win3_1.index t (1 : Fin 2) * 64 + 1 * q.val = q.val; omega

/-- The block of the degree column at point `t` reads the same rows of the column. -/
theorem blk3_2_apply (c : Dev nD) (t : Fin cfg3.N) (p : Fin 5000) :
    iblk3 (F := Ideal) V c 2 t (ix2 p (0 : Fin 1))
      = V c main_v45 (ix2 ⟨t.val * 5000 + p.val, row_lt t.val (lt3 t) p⟩ (0 : Fin 1)) := by
  show V c main_v45 (((cfg3.win 2).blk t).view.emb (ix2 p (0 : Fin 1))) = _
  obtain ⟨e00, e01, e10, e11, e20, e21, e30, e31, e40, e41⟩ := idx_facts3 t
  congr 1
  funext a; apply Fin.ext
  match a with
  | ⟨0, _⟩ => show win3_2.index t (0 : Fin 2) * 5000 + 1 * p.val = t.val * 5000 + p.val; omega
  | ⟨1, _⟩ => show win3_2.index t (1 : Fin 2) * 1 + 1 * 0 = 0; omega

/-- The block of the bias row at every point is the whole row. -/
theorem blk3_3_apply (c : Dev nD) (t : Fin cfg3.N) (q : Fin 64) :
    iblk3 (F := Ideal) V c 3 t (ix2 (0 : Fin 1) q) = V c main_v46 (ix2 (0 : Fin 1) q) := by
  show V c main_v46 (((cfg3.win 3).blk t).view.emb (ix2 (0 : Fin 1) q)) = _
  obtain ⟨e00, e01, e10, e11, e20, e21, e30, e31, e40, e41⟩ := idx_facts3 t
  congr 1
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- Entry `(p, q)` of point `t`'s result block sits at row `5000 t + p`, column `q` of the result array. -/
theorem emb3_4_apply (t : Fin cfg3.N) (p : Fin 5000) (q : Fin 64) :
    ((cfg3.win 4).blk t).view.emb (ix2 p q) = ix2 ⟨t.val * 5000 + p.val, row_lt t.val (lt3 t) p⟩ q := by
  obtain ⟨e00, e01, e10, e11, e20, e21, e30, e31, e40, e41⟩ := idx_facts3 t
  funext a; apply Fin.ext
  match a with
  | ⟨0, _⟩ => show win3_4.index t (0 : Fin 2) * 5000 + 1 * p.val = t.val * 5000 + p.val; omega
  | ⟨1, _⟩ => show win3_4.index t (1 : Fin 2) * 64 + 1 * q.val = q.val; omega

/-- WHAT POINT `t` WRITES BACK is block `t` of the finished layer of the arrays as the region finds them. -/
theorem flushed3_eq (c : Dev nD) (t : Fin cfg3.N) :
    (dat3 (F := Ideal) V c).flushed 4 t
      = ((cfg3.win 4).blk t).view.read (Elt Ideal)
          (Cert.Gcn.comb (V c main_v31) (V c main_v44) (V c main_v45) (V c main_v46)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  have key : ∀ j : S5000x64.Idx,
      k3_pay1 (iblk3 V c 2 t) (iblk3 V c 1 t) (iblk3 V c 0 t) (iblk3 V c 3 t) j
        = Cert.Gcn.comb (V c main_v31) (V c main_v44) (V c main_v45) (V c main_v46) (((cfg3.win 4).blk t).view.emb j) := by
    intro j
    obtain ⟨p, q, rfl⟩ : ∃ (p : Fin 5000) (q : Fin 64), j = ix2 p q := ⟨j 0, j 1, eq_ix2 j⟩
    exact (comb_of_blocks3 (V c main_v31) (V c main_v44) (V c main_v45) (V c main_v46) _ _ _ _
      ⟨t.val * 5000 + p.val, row_lt t.val (lt3 t) p⟩ p q
      (blk3_0_apply V c t p q) (blk3_1_apply V c t p q) (blk3_2_apply V c t p) (blk3_3_apply V c t q)).trans
      (congrArg _ (emb3_4_apply t p q).symm)
  exact funext key

/-- An index of the result array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v47).slice (win3_4.rect t)).set ↔ _
  rw [View.set_slice_whole, Rect.mem_set_unit]
  exact Iff.rfl

/-- The blocks tile the rows: row `r` is in the block of point `r / 5000`. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  have ht : (i 0).val / 5000 < cfg3.N := by show (i 0).val / 5000 < grid3.N; rw [hN]; omega
  obtain ⟨t, htv⟩ : ∃ t : Fin cfg3.N, t.val = (i 0).val / 5000 := ⟨⟨(i 0).val / 5000, ht⟩, rfl⟩
  obtain ⟨e00, e01, e10, e11, e20, e21, e30, e31, e40, e41⟩ := idx_facts3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- After the second combine region its result array is the finished layer of the arrays it found. -/
theorem comb3_final (c : Dev nD) :
    (dat3 (F := Ideal) V c).arrAt 4 cfg3.N = Cert.Gcn.comb (V c main_v31) (V c main_v44) (V c main_v45) (V c main_v46) :=
  (dat3 (F := Ideal) V c).arrAt_eq_of_cover 4 (Cert.Gcn.comb (V c main_v31) (V c main_v44) (V c main_v45) (V c main_v46))
    (fun t _ => flushed3_eq V c t) cover3

end Cert.KernelIdeal.RegionCombine

end
-- ==== Proof.LibScaleSum.lean ====
/-
  A nonnegative real factor and a guarded finite sum of extended reals.

  On the extended reals a product does not distribute over a sum in general (`⊤ + ⊥`), but a NONNEGATIVE REAL factor
  does: `(∑ a) * x = ∑ (a * x)`. So a sum of terms `a e * s e` over the rows `e` selected by a predicate, scaled
  afterwards by one factor `d`, is the sum of the terms `a e * (s e * t e)` whenever `t e = d` on the selected rows.
  The factor met here is an inverse square root of one plus a count, which is such a real. Two words: the bit
  pattern `0x3F800000` is the real `1`; and a 32-bit word that is nonnegative as a signed integer is left alone by
  the wrap-around `if w < 0 then w + n else w`.
-/
import Idealize.ShloMosaic.PureOps.Ideal
import Idealize.ShloMosaic.Lib.ValueIdx

noncomputable section

namespace Idealize.ShloMosaic.ScaleSum

open Idealize.ShloMosaic Idealize.ShloMosaic.ValueIdx
open scoped BigOperators

/-- A nonnegative real factor distributes over a finite sum of extended reals. -/
theorem sum_mul_of_nonneg {ι : Type*} (s : Finset ι) (a : ι → EReal) {x : ℝ} (hx : 0 ≤ x) :
    (∑ i ∈ s, a i) * (x : EReal) = ∑ i ∈ s, a i * (x : EReal) := by
  classical
  refine Finset.induction_on s ?_ ?_
  · rw [Finset.sum_empty, Finset.sum_empty, zero_mul]
  · intro i s hi ih
    rw [Finset.sum_insert hi, Finset.sum_insert hi,
      EReal.right_distrib_of_nonneg_of_ne_top (EReal.coe_nonneg.mpr hx) (EReal.coe_ne_top x), ih]

/-- THE LAW: the selected rows' terms `a e * s e` summed (onto `0`) and then scaled by `d` are the selected rows'
    terms `a e * (s e * t e)` summed, when `d` is a nonnegative real and `t e = d` on every selected row. -/
theorem scaled_sum_law {E : ℕ} (P : Fin E → Prop) [DecidablePred P] (a s t : Fin E → EReal) (d : EReal)
    (hd : ∃ x : ℝ, 0 ≤ x ∧ d = (x : EReal)) (ht : ∀ e, P e → t e = d) :
    ((0 : EReal) + ∑ e : Fin E, if P e then a e * s e else 0) * d
      = (0 : EReal) + ∑ e : Fin E, if P e then a e * (s e * t e) else 0 := by
  obtain ⟨x, hx, rfl⟩ := hd
  rw [zero_add, zero_add, sum_mul_of_nonneg Finset.univ _ hx]
  refine Finset.sum_congr rfl fun e _ => ?_
  by_cases hP : P e
  · rw [if_pos hP, if_pos hP, ht e hP, mul_assoc]
  · rw [if_neg hP, if_neg hP, zero_mul]

/-- The inverse square root of one plus a count (a sum of ones over the selected rows, onto `0`) is a nonnegative real. -/
theorem rsqrt_count {E : ℕ} (P : Fin E → Prop) [DecidablePred P] :
    ∃ x : ℝ, 0 ≤ x ∧ Ideal.rsqrt (((0 : EReal) + ∑ e : Fin E, if P e then (1 : EReal) else 0) + 1) = (x : EReal) := by
  -- the sum of ones over the selected rows is the (real) number of selected rows
  have hsum : (∑ e : Fin E, if P e then (1 : EReal) else 0)
      = (((Finset.univ.filter P).card : ℝ) : EReal) := by
    rw [Finset.sum_boole]; rfl
  have hpos : (0 : ℝ) < ((Finset.univ.filter P).card : ℝ) + 1 := by positivity
  refine ⟨(Real.sqrt (((Finset.univ.filter P).card : ℝ) + 1))⁻¹, inv_nonneg.mpr (Real.sqrt_nonneg _), ?_⟩
  rw [zero_add, hsum, ← EReal.coe_one, ← EReal.coe_add, Ideal.rsqrt_coe,
    if_neg (not_lt.mpr hpos.le), if_neg hpos.ne']

/-- The single-precision bit pattern of one is the real `1`. -/
theorem ofBits_one : Ideal.ofBits .f32 0x3F800000#32 = (1 : EReal) := by
  simp [Ideal.ofBits, Ideal.ieee, -EReal.coe_mul]; norm_num

/-- A word that is nonnegative as a signed integer is left alone by the wrap-around of negative indices. -/
theorem wrap_of_nonneg (w n : BitVec 32) (h : 0 ≤ w.toInt) :
    Scalar.select (IntOp.cmpi .slt w 0#32) (IntOp.addi w n) w = w := by
  have hs : w.slt 0#32 = false := by
    simp only [BitVec.slt, BitVec.toInt_zero, decide_eq_false_iff_not, not_lt]
    exact h
  unfold IntOp.cmpi
  simp only [hs]
  exact select_zero _ _

end Idealize.ShloMosaic.ScaleSum

end
-- ==== Proof.LayerLaw.lean ====
/-
  One graph-convolution layer, entry by entry, in its two arrangements, and the law that joins them.

  With `h` the projected features, `d r` the inverse square-root degree of node `r`, edge `e` running from node
  `srcw e` to the node whose id is `dstId e`, and `b` the bias, entry `(r, c)` of the layer is the rectified sum of the
  neighbour term, the self-loop term `h (r, c) * (d r * d r)` and `b c`. The neighbour term is arranged in two ways:

  * `layerK`: every neighbour's feature scaled by that neighbour's own factor, summed over the edges into `r`, and
    the SUM scaled by `d r`;
  * `layerR`: every neighbour's feature scaled by the edge's weight `d (srcw e) * d (dstw e)`, summed over the edges
    into `r`, where `dstw e` is the edge's target node.

  On the edges into `r` the target node is `r`, so the weights carry the common factor `d r`; it is a nonnegative
  real, and such a factor distributes over a finite sum of extended reals. So the two arrangements agree.
-/
import proofs.«129485_j137438953659_2_alg».proof.Proof.Spec
import proofs.«129485_j137438953659_2_alg».proof.Proof.LibScaleSum

noncomputable section

namespace Cert.Gcn

open Idealize.ShloMosaic Idealize.ShloMosaic.ValueIdx
open scoped BigOperators

/-- Entry `(r, c)` of a layer, the node's own factor applied to the neighbour SUM. -/
def layerK (h : SND.Idx → EReal) (d : Fin 100000 → EReal) (srcw : Fin 1200000 → Fin 100000) (dstId : Fin 1200000 → ℤ)
    (b : Fin 64 → EReal) (r : Fin 100000) (c : Fin 64) : EReal :=
  max (((0 : EReal) + ∑ e : Fin 1200000, if dstId e = (r.val : ℤ) then h (ix2 (srcw e) c) * d (srcw e) else 0) * d r
    + h (ix2 r c) * (d r * d r) + b c) 0

/-- Entry `(r, c)` of a layer, every edge weighted by both of its ends' factors. -/
def layerR (h : SND.Idx → EReal) (d : Fin 100000 → EReal) (srcw dstw : Fin 1200000 → Fin 100000) (dstId : Fin 1200000 → ℤ)
    (b : Fin 64 → EReal) (r : Fin 100000) (c : Fin 64) : EReal :=
  max (((0 : EReal) + ∑ e : Fin 1200000, if dstId e = (r.val : ℤ) then h (ix2 (srcw e) c) * (d (srcw e) * d (dstw e)) else 0)
    + h (ix2 r c) * (d r * d r) + b c) 0

/-- THE LAW: when every factor is a nonnegative real and an edge into `r` has target node `r`, the two arrangements
    of a layer's entry agree. -/
theorem layer_eq (h : SND.Idx → EReal) (d : Fin 100000 → EReal) (srcw dstw : Fin 1200000 → Fin 100000)
    (dstId : Fin 1200000 → ℤ) (b : Fin 64 → EReal)
    (hd : ∀ r, ∃ x : ℝ, 0 ≤ x ∧ d r = (x : EReal)) (hw : ∀ e r, dstId e = ((r : Fin 100000).val : ℤ) → dstw e = r)
    (r : Fin 100000) (c : Fin 64) :
    layerK h d srcw dstId b r c = layerR h d srcw dstw dstId b r c := by
  unfold layerK layerR
  refine congrArg (fun z => max (z + h (ix2 r c) * (d r * d r) + b c) 0) ?_
  exact ScaleSum.scaled_sum_law (fun e => dstId e = (r.val : ℤ)) (fun e => h (ix2 (srcw e) c)) (fun e => d (srcw e))
    (fun e => d (dstw e)) (d r) (hd r) (fun e he => by rw [hw e r he])

/-- The whole layer in the first arrangement. -/
def layerArrK (h : SND.Idx → EReal) (d : Fin 100000 → EReal) (srcw : Fin 1200000 → Fin 100000) (dstId : Fin 1200000 → ℤ)
    (b : Fin 64 → EReal) : SND.Idx → EReal :=
  fun i => layerK h d srcw dstId b ⟨(i 0).val, idx2_lt0 i⟩ ⟨(i 1).val, idx2_lt1 i⟩

/-- The whole layer in the second arrangement. -/
def layerArrR (h : SND.Idx → EReal) (d : Fin 100000 → EReal) (srcw dstw : Fin 1200000 → Fin 100000) (dstId : Fin 1200000 → ℤ)
    (b : Fin 64 → EReal) : SND.Idx → EReal :=
  fun i => layerR h d srcw dstw dstId b ⟨(i 0).val, idx2_lt0 i⟩ ⟨(i 1).val, idx2_lt1 i⟩

theorem layerArrK_apply (h : SND.Idx → EReal) (d : Fin 100000 → EReal) (srcw : Fin 1200000 → Fin 100000)
    (dstId : Fin 1200000 → ℤ) (b : Fin 64 → EReal) (r : Fin 100000) (c : Fin 64) :
    layerArrK h d srcw dstId b (ix2 r c) = layerK h d srcw dstId b r c := rfl

theorem layerArrR_apply (h : SND.Idx → EReal) (d : Fin 100000 → EReal) (srcw dstw : Fin 1200000 → Fin 100000)
    (dstId : Fin 1200000 → ℤ) (b : Fin 64 → EReal) (r : Fin 100000) (c : Fin 64) :
    layerArrR h d srcw dstw dstId b (ix2 r c) = layerR h d srcw dstw dstId b r c := rfl

/-- The two arrangements are one array. -/
theorem layerArr_eq (h : SND.Idx → EReal) (d : Fin 100000 → EReal) (srcw dstw : Fin 1200000 → Fin 100000)
    (dstId : Fin 1200000 → ℤ) (b : Fin 64 → EReal)
    (hd : ∀ r, ∃ x : ℝ, 0 ≤ x ∧ d r = (x : EReal)) (hw : ∀ e r, dstId e = ((r : Fin 100000).val : ℤ) → dstw e = r) :
    layerArrK h d srcw dstId b = layerArrR h d srcw dstw dstId b :=
  funext fun _ => layer_eq h d srcw dstw dstId b hd hw _ _

end Cert.Gcn

end
-- ==== Proof.LibRowOps.lean ====
/-
  Row-indexed scatter and gather of a matrix, read at an index.

  An accumulating scatter of the rows of an `[e, f]` matrix of updates into an `[n, f]` operand, at one row id per
  update row (the index array `[e, 1]`, each id read as a signed integer, an id outside `[0, n)` dropping its row), is,
  at entry `(r, c)`, the operand there plus the sum over the update rows `k` whose id is `r` of update `(k, c)`.
  A gather of whole rows of an `[n, f]` operand (or of entries of a flat `[n]` operand) at one row id per result row
  reads, at result row `k`, the operand's row `clampRow (id k)`: the id read as a signed integer and clamped into
  `[0, n - 1]`. All three are generic in the extents.
-/
import Idealize.ShloMosaic.PureOps.Ideal
import Idealize.ShloMosaic.Lib.ValueIdx
import Idealize.ShloMosaic.Lib.Pipeline.Value

noncomputable section

namespace Idealize.ShloMosaic.RowOps

open Idealize.ShloMosaic Idealize.ShloMosaic.ValueIdx
open scoped BigOperators

/-- A row id read as a signed integer and clamped into `[0, n - 1]`. -/
def clampRow (n : Nat) (hn : 0 < n) {w : Nat} (x : BitVec w) : Fin n := ⟨min x.toInt.toNat (n - 1), by omega⟩

/-! ## The row scatter -/

/-- The dimension numbers of a scatter of update rows `[e, f]` into an operand `[n, f]` at indices `[e, 1]`: the
    feature axis is the window axis, the operand's row axis inserted and indexed by the index vector's one component. -/
abbrev rowsDims (n e f : Nat) (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

section Rows
variable {n e f w : Nat} (wf : ScatterDims.WF ⟨2, ![n, f]⟩ ⟨2, ![e, 1]⟩ ⟨2, ![e, f]⟩ [1] [0] [0] 1)

/-- On the row axis update `j` starts at the id of its row; -/
theorem rows_start0 (j : (⟨2, ![e, f]⟩ : Shape).Idx) (idx : IVec ⟨2, ![e, 1]⟩ w) :
    (rowsDims n e f wf).start j idx 0 = (idx (ix2 (j 0) 0)).toInt := by
  unfold ScatterDims.start
  rw [dif_pos (show (0 : Fin 2) ∈ (rowsDims n e f wf).scatterDimsToOperandDims from List.mem_singleton.mpr rfl)]
  have hsi : (rowsDims n e f wf).siIdx j ⟨List.idxOf (0 : Fin 2) (rowsDims n e f wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the feature axis at `0`. -/
theorem rows_start1 (j : (⟨2, ![e, f]⟩ : Shape).Idx) (idx : IVec ⟨2, ![e, 1]⟩ w) :
    (rowsDims n e f wf).start j idx 1 = 0 := by
  unfold ScatterDims.start
  rw [dif_neg (show ¬ (1 : Fin 2) ∈ ([0] : List (Fin 2)) by decide)]

/-- The row axis is inserted: no window coordinate there; -/
theorem rows_window0 (j : (⟨2, ![e, f]⟩ : Shape).Idx) : (rowsDims n e f wf).window j 0 = 0 := by
  unfold ScatterDims.window
  rw [dif_neg (fun h => by
    have h2 := (List.mem_filter.mp h).2
    simp at h2)]

/-- the feature axis carries the update's column coordinate. -/
theorem rows_window1 (j : (⟨2, ![e, f]⟩ : Shape).Idx) : (rowsDims n e f wf).window j 1 = (j 1).val := by
  unfold ScatterDims.window
  rw [dif_pos (show (1 : Fin 2) ∈ (rowsDims n e f wf).sKept from
    List.mem_filter.mpr ⟨List.mem_finRange _, by simp⟩)]
  rfl

/-- Update `j` lands on position `i` exactly when its row's id is `i`'s row and its column is `i`'s column. -/
theorem rows_resultIdx (j : (⟨2, ![e, f]⟩ : Shape).Idx) (idx : IVec ⟨2, ![e, 1]⟩ w) (i : (⟨2, ![n, f]⟩ : Shape).Idx) :
    (rowsDims n e f wf).resultIdx? j idx = some i
      ↔ (idx (ix2 (j 0) 0)).toInt = ((i 0).val : ℤ) ∧ (j 1).val = (i 1).val := by
  unfold ScatterDims.resultIdx?
  split_ifs with h
  · rw [Option.some.injEq]
    constructor
    · intro hi
      have h0 := (h 0).1
      rw [← hi]
      constructor
      · show _ = (((rowsDims n e f wf).start j idx 0 + ((rowsDims n e f wf).window j 0 : ℕ)).toNat : ℤ)
        rw [Int.toNat_of_nonneg h0, rows_start0, rows_window0]; simp
      · show _ = ((rowsDims n e f wf).start j idx 1 + ((rowsDims n e f wf).window j 1 : ℕ)).toNat
        rw [rows_start1, rows_window1]; simp
    · rintro ⟨hi0, hi1⟩
      funext a
      refine Fin.ext ?_
      match a with
      | ⟨0, _⟩ =>
        show ((rowsDims n e f wf).start j idx 0 + ((rowsDims n e f wf).window j 0 : ℕ)).toNat = (i 0).val
        rw [rows_start0, rows_window0, hi0]; simp
      | ⟨1, _⟩ =>
        show ((rowsDims n e f wf).start j idx 1 + ((rowsDims n e f wf).window j 1 : ℕ)).toNat = (i 1).val
        rw [rows_start1, rows_window1, hi1]; simp
  · constructor
    · intro hi; exact absurd hi (by simp)
    · rintro ⟨hi0, hi1⟩
      exfalso; apply h
      intro a
      match a with
      | ⟨0, _⟩ =>
        show 0 ≤ (rowsDims n e f wf).start j idx 0 + ((rowsDims n e f wf).window j 0 : ℕ)
          ∧ (rowsDims n e f wf).start j idx 0 + ((rowsDims n e f wf).window j 0 : ℕ) < ((⟨2, ![n, f]⟩ : Shape).size 0 : ℕ)
        rw [rows_start0, rows_window0, hi0]
        have := (i 0).isLt
        constructor <;> omega
      | ⟨1, _⟩ =>
        show 0 ≤ (rowsDims n e f wf).start j idx 1 + ((rowsDims n e f wf).window j 1 : ℕ)
          ∧ (rowsDims n e f wf).start j idx 1 + ((rowsDims n e f wf).window j 1 : ℕ) < ((⟨2, ![n, f]⟩ : Shape).size 1 : ℕ)
        rw [rows_start1, rows_window1, hi1]
        have := (i 1).isLt
        constructor <;> omega

end Rows

/-- THE ROW SCATTER READ AT `(r, c)`: the operand there plus column `c` of the update rows whose id is `r`. -/
theorem rows_apply {n e f w : Nat} (wf : ScatterDims.WF ⟨2, ![n, f]⟩ ⟨2, ![e, 1]⟩ ⟨2, ![e, f]⟩ [1] [0] [0] 1)
    (x : (⟨2, ![n, f]⟩ : Shape).Idx → EReal) (idx : IVec ⟨2, ![e, 1]⟩ w)
    (upd : (⟨2, ![e, f]⟩ : Shape).Idx → EReal) (r : Fin n) (c : Fin f) :
    Ideal.hostScatterAdd (rowsDims n e f wf) x idx upd (ix2 r c)
      = x (ix2 r c) + ∑ k : Fin e, if (idx (ix2 k (0 : Fin 1))).toInt = (r.val : ℤ) then upd (ix2 k c) else 0 := by
  unfold Ideal.hostScatterAdd
  refine congrArg (x (ix2 r c) + ·) ?_
  rw [Finset.sum_filter, sum_idx2]
  refine Finset.sum_congr rfl fun k _ => ?_
  by_cases h : (idx (ix2 k (0 : Fin 1))).toInt = (r.val : ℤ)
  · rw [if_pos h, Finset.sum_eq_single c]
    · exact if_pos ((rows_resultIdx wf (ix2 k c) idx (ix2 r c)).mpr ⟨h, rfl⟩)
    · intro b _ hb
      exact if_neg fun hr => hb (Fin.ext ((rows_resultIdx wf (ix2 k b) idx (ix2 r c)).mp hr).2)
    · intro hc; exact absurd (Finset.mem_univ c) hc
  · rw [if_neg h]
    refine Finset.sum_eq_zero fun b _ => ?_
    exact if_neg fun hr => h ((rows_resultIdx wf (ix2 k b) idx (ix2 r c)).mp hr).1

/-! ## The gathers -/

/-- The dimension numbers of a gather of entries of a flat operand `[n]` at indices `[e, 1]` into `[e]`. -/
abbrev vecGatherDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE FLAT GATHER READ AT `k`: the operand at the clamped id of row `k`. -/
theorem vecGather_apply {α : Type} {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (k : Fin e) :
    Host.gather (vecGatherDims n e wf) x idx (ix1 k) = x (ix1 (clampRow n hn (idx (ix2 k (0 : Fin 1))))) := by
  unfold Host.gather
  congr 1
  funext a
  obtain rfl : a = 0 := Subsingleton.elim _ _
  refine Fin.ext ?_
  show (vecGatherDims n e wf).start (ix1 k) idx 0 + (vecGatherDims n e wf).batchCoord (ix1 k) 0
    + (vecGatherDims n e wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 k) ⟨List.idxOf (0 : Fin 1) (vecGatherDims n e wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The dimension numbers of a gather of whole rows of an operand `[n, f]` at indices `[e, 1]` into `[e, f]`. -/
abbrev rowGatherDims (n e f : Nat) (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- THE ROW GATHER READ AT `(k, c)`: column `c` of the operand's row at the clamped id of row `k`. -/
theorem rowGather_apply {α : Type} {n e f w : Nat} (hn : 0 < n)
    (wf : GatherDims.WF ⟨2, ![n, f]⟩ ⟨2, ![e, 1]⟩ ⟨2, ![e, f]⟩ [1] [0] [] [0] [] 1 ![1, f])
    (x : (⟨2, ![n, f]⟩ : Shape).Idx → α) (idx : IVec ⟨2, ![e, 1]⟩ w) (k : Fin e) (c : Fin f) :
    Host.gather (rowGatherDims n e f wf) x idx (ix2 k c) = x (ix2 (clampRow n hn (idx (ix2 k (0 : Fin 1)))) c) := by
  unfold Host.gather
  congr 1
  funext a
  refine Fin.ext ?_
  match a with
  | ⟨0, _⟩ =>
    show (rowGatherDims n e f wf).start (ix2 k c) idx 0 + (rowGatherDims n e f wf).batchCoord (ix2 k c) 0
      + (rowGatherDims n e f wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e f wf).startIndexMap from List.mem_singleton.mpr rfl)]
    have hsi : (rowGatherDims n e f wf).siIdx (ix2 k c) ⟨List.idxOf (0 : Fin 2) (rowGatherDims n e f wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGatherDims n e f wf).start (ix2 k c) idx 1 + (rowGatherDims n e f wf).batchCoord (ix2 k c) 1
      + (rowGatherDims n e f wf).offCoord (ix2 k c) 1 = c.val
    rw [GatherDims.batchCoord_eq_zero _ _ _ List.not_mem_nil]
    have hs : (rowGatherDims n e f wf).start (ix2 k c) idx 1 = 0 := by
      unfold GatherDims.start
      rw [dif_neg (show ¬ (1 : Fin 2) ∈ ([0] : List (Fin 2)) by decide)]
    have ho : (rowGatherDims n e f wf).offCoord (ix2 k c) 1 = c.val := by
      unfold GatherDims.offCoord
      rw [dif_pos (show (1 : Fin 2) ∈ (rowGatherDims n e f wf).sKept from
        (GatherDims.mem_sKept _ _).mpr
          ⟨(show ¬ (1 : Fin 2) ∈ ([0] : List (Fin 2)) by decide), List.not_mem_nil⟩)]
      rfl
    rw [hs, ho, Nat.zero_add]

end Idealize.ShloMosaic.RowOps

end
-- ==== Proof.LibSegmentSum.lean ====
/-
  An accumulating scatter of a flat list of updates into a flat array, read at an index — the form a
  segment sum `out[seg[k]] += data[k]` takes — in its two spellings: updates and result as flat arrays
  (`[e]` into `[n]`), and as one-column matrices (`[e, 1]` into `[n, 1]`, the column a window axis).
  In both the result at position `i` is the operand there plus the sum, over the update rows `k` whose
  segment id (the index array's entry `[k, 0]`, read as a signed integer) equals `i`, of update `k`;
  an id outside `[0, n)` names no position and its update is dropped. So the two spellings are one
  function, up to the reshaping of a column into a flat array.
-/
import Idealize.ShloMosaic.PureOps.Ideal
import Idealize.ShloMosaic.Lib.ValueIdx
import Idealize.ShloMosaic.Lib.Pipeline.Value

noncomputable section

namespace Idealize.ShloMosaic.SegmentSum

open Idealize.ShloMosaic Idealize.ShloMosaic.ValueIdx
open scoped BigOperators

/-! ## Flat arrays and one-column matrices are indexed by their rows -/

/-- A flat array's indices are its positions. -/
def rowEquiv1 {n : Nat} : (⟨1, ![n]⟩ : Shape).Idx ≃ Fin n where
  toFun j := j 0
  invFun := ix1
  left_inv j := (eq_ix1 j).symm
  right_inv _ := rfl

/-- A one-column matrix's indices are its rows. -/
def rowEquiv2 {n : Nat} : (⟨2, ![n, 1]⟩ : Shape).Idx ≃ Fin n where
  toFun j := j 0
  invFun a := ix2 a 0
  left_inv j := by
    funext a
    match a with
    | ⟨0, _⟩ => rfl
    | ⟨1, _⟩ => exact Subsingleton.elim (α := Fin 1) _ _
  right_inv _ := rfl

/-- On the extended reals the host's accumulating scatter is the exact sum, whatever the schedule. -/
theorem scatterAdd_ideal {φ : FTy} {s si u : Shape} {w : Nat} (d : ScatterDims s si u) (x : FVec Ideal s φ)
    (idx : IVec si w) (upd : FVec Ideal u φ) :
    Host.scatterAdd (F := Ideal) d x idx upd = Ideal.hostScatterAdd d x idx upd := rfl

/-! ## The layout operations around a segment sum, read at an index -/

/-- The ids `[n]` broadcast to the index array `[n, 1]` read, at `(k, 0)`, id `k`. -/
theorem ids_apply {α : Type} {n : Nat} (h : (⟨1, ![n]⟩ : Shape).BroadcastsInDim ⟨2, ![n, 1]⟩ ![0]) (hn : n ≠ 1)
    (x : (⟨1, ![n]⟩ : Shape).Idx → α) (k : Fin n) :
    broadcastInDim ⟨2, ![n, 1]⟩ ![0] h x (ix2 k (0 : Fin 1)) = x (ix1 k) :=
  broadcastInDim_apply _ h x (ix2 k 0) (ix1 k) (fun b => match b with
    | ⟨0, _⟩ => by show k.val = if n = 1 then 0 else k.val; rw [if_neg hn])

/-- A one-column matrix `[n, 1]` reshaped to the flat array `[n]` reads, at `k`, entry `(k, 0)`. -/
theorem flatten_apply {α : Type} {n : Nat} (h : (⟨2, ![n, 1]⟩ : Shape).ShapeCasts ⟨1, ![n]⟩)
    (y : (⟨2, ![n, 1]⟩ : Shape).Idx → α) (k : Fin n) :
    shapeCast ⟨1, ![n]⟩ y h (ix1 k) = y (ix2 k (0 : Fin 1)) :=
  shapeCast_apply y h (ix1 k) (ix2 k 0) (by
    rw [Shape.rowMajor_val_two, Shape.rowMajor_val_one]; show k.val * 1 + 0 = k.val; omega)

/-! ## The flat spelling -/

/-- The dimension numbers of a scatter of flat updates `[e]` into a flat operand `[n]` at indices `[e, 1]`:
    no window axis, the operand's one axis inserted and indexed by the index vector's one component. -/
abbrev flatDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Flat
variable {n e w : Nat} (wf : ScatterDims.WF ⟨1, ![n]⟩ ⟨2, ![e, 1]⟩ ⟨1, ![e]⟩ [] [0] [0] 1)

/-- Update `j` starts at the segment id of its row. -/
theorem flat_start (j : (⟨1, ![e]⟩ : Shape).Idx) (idx : IVec ⟨2, ![e, 1]⟩ w) :
    (flatDims n e wf).start j idx 0 = (idx (ix2 (j 0) 0)).toInt := by
  unfold ScatterDims.start
  rw [dif_pos (show (0 : Fin 1) ∈ (flatDims n e wf).scatterDimsToOperandDims from List.mem_singleton.mpr rfl)]
  have hsi : (flatDims n e wf).siIdx j ⟨List.idxOf (0 : Fin 1) (flatDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- There is no window: the only operand axis is inserted. -/
theorem flat_window (j : (⟨1, ![e]⟩ : Shape).Idx) : (flatDims n e wf).window j 0 = 0 := by
  unfold ScatterDims.window
  rw [dif_neg (fun h => by
    have h2 := (List.mem_filter.mp h).2
    simp at h2)]

/-- Update `j` lands on position `i` exactly when its row's segment id is `i`. -/
theorem flat_resultIdx (j : (⟨1, ![e]⟩ : Shape).Idx) (idx : IVec ⟨2, ![e, 1]⟩ w) (i : (⟨1, ![n]⟩ : Shape).Idx) :
    (flatDims n e wf).resultIdx? j idx = some i ↔ (idx (ix2 (j 0) 0)).toInt = ((i 0).val : ℤ) := by
  unfold ScatterDims.resultIdx?
  split_ifs with h
  · rw [Option.some.injEq]
    constructor
    · intro hi
      have h0 := (h 0).1
      rw [← hi]
      show _ = (((flatDims n e wf).start j idx 0 + ((flatDims n e wf).window j 0 : ℕ)).toNat : ℤ)
      rw [Int.toNat_of_nonneg h0, flat_start, flat_window]; simp
    · intro hi
      funext a
      obtain rfl : a = 0 := Subsingleton.elim _ _
      refine Fin.ext ?_
      show ((flatDims n e wf).start j idx 0 + ((flatDims n e wf).window j 0 : ℕ)).toNat = (i 0).val
      rw [flat_start, flat_window, hi]; simp
  · constructor
    · intro hi; exact absurd hi (by simp)
    · intro hi
      exfalso; apply h
      intro a
      obtain rfl : a = 0 := Subsingleton.elim _ _
      rw [flat_start, flat_window, hi]
      have := (i 0).isLt
      constructor <;> omega

/-- THE FLAT SCATTER READ AT `i`: the operand there plus the updates of the rows whose segment id is `i`. -/
theorem flat_apply (x : (⟨1, ![n]⟩ : Shape).Idx → EReal) (idx : IVec ⟨2, ![e, 1]⟩ w)
    (upd : (⟨1, ![e]⟩ : Shape).Idx → EReal) (i : (⟨1, ![n]⟩ : Shape).Idx) :
    Ideal.hostScatterAdd (flatDims n e wf) x idx upd i
      = x i + ∑ k : Fin e, if (idx (ix2 k 0)).toInt = ((i 0).val : ℤ) then upd (ix1 k) else 0 := by
  unfold Ideal.hostScatterAdd
  refine congrArg (x i + ·) ?_
  rw [Finset.sum_filter]
  refine Fintype.sum_equiv rowEquiv1 _ _ fun j => ?_
  show _ = if (idx (ix2 (j 0) 0)).toInt = ((i 0).val : ℤ) then upd (ix1 (j 0)) else 0
  by_cases h : (idx (ix2 (j 0) 0)).toInt = ((i 0).val : ℤ)
  · rw [if_pos ((flat_resultIdx wf j idx i).mpr h), if_pos h]
    exact congrArg upd (eq_ix1 j)
  · rw [if_neg (mt (flat_resultIdx wf j idx i).mp h), if_neg h]

end Flat

/-! ## The one-column spelling -/

/-- The dimension numbers of a scatter of one-column updates `[e, 1]` into a one-column operand `[n, 1]` at
    indices `[e, 1]`: the column is the window axis, the operand's row axis inserted and indexed. -/
abbrev colDims (n e : Nat) (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ where
  updateWindowDims := [1]
  insertedWindowDims := [0]
  scatterDimsToOperandDims := [0]
  indexVectorDim := 1
  wf := wf

section Col
variable {n e w : Nat} (wf : ScatterDims.WF ⟨2, ![n, 1]⟩ ⟨2, ![e, 1]⟩ ⟨2, ![e, 1]⟩ [1] [0] [0] 1)

/-- On the row axis update `j` starts at the segment id of its row; -/
theorem col_start0 (j : (⟨2, ![e, 1]⟩ : Shape).Idx) (idx : IVec ⟨2, ![e, 1]⟩ w) :
    (colDims n e wf).start j idx 0 = (idx (ix2 (j 0) 0)).toInt := by
  unfold ScatterDims.start
  rw [dif_pos (show (0 : Fin 2) ∈ (colDims n e wf).scatterDimsToOperandDims from List.mem_singleton.mpr rfl)]
  have hsi : (colDims n e wf).siIdx j ⟨List.idxOf (0 : Fin 2) (colDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis at `0`. -/
theorem col_start1 (j : (⟨2, ![e, 1]⟩ : Shape).Idx) (idx : IVec ⟨2, ![e, 1]⟩ w) :
    (colDims n e wf).start j idx 1 = 0 := by
  unfold ScatterDims.start
  rw [dif_neg (show ¬ (1 : Fin 2) ∈ ([0] : List (Fin 2)) by decide)]

/-- The row axis is inserted: no window coordinate there; -/
theorem col_window0 (j : (⟨2, ![e, 1]⟩ : Shape).Idx) : (colDims n e wf).window j 0 = 0 := by
  unfold ScatterDims.window
  rw [dif_neg (fun h => by
    have h2 := (List.mem_filter.mp h).2
    simp at h2)]

/-- the column axis carries the update's column coordinate. -/
theorem col_window1 (j : (⟨2, ![e, 1]⟩ : Shape).Idx) : (colDims n e wf).window j 1 = (j 1).val := by
  unfold ScatterDims.window
  rw [dif_pos (show (1 : Fin 2) ∈ (colDims n e wf).sKept from
    List.mem_filter.mpr ⟨List.mem_finRange _, by simp⟩)]
  rfl

/-- Update `j` lands on position `i` exactly when its row's segment id is `i`'s row (the columns, of width
    one, always agree). -/
theorem col_resultIdx (j : (⟨2, ![e, 1]⟩ : Shape).Idx) (idx : IVec ⟨2, ![e, 1]⟩ w) (i : (⟨2, ![n, 1]⟩ : Shape).Idx) :
    (colDims n e wf).resultIdx? j idx = some i ↔ (idx (ix2 (j 0) 0)).toInt = ((i 0).val : ℤ) := by
  have hj1 : (j 1).val = 0 := by have : (j 1).val < 1 := (j 1).isLt; omega
  have hi1 : (i 1).val = 0 := by have : (i 1).val < 1 := (i 1).isLt; omega
  unfold ScatterDims.resultIdx?
  split_ifs with h
  · rw [Option.some.injEq]
    constructor
    · intro hi
      have h0 := (h 0).1
      rw [← hi]
      show _ = (((colDims n e wf).start j idx 0 + ((colDims n e wf).window j 0 : ℕ)).toNat : ℤ)
      rw [Int.toNat_of_nonneg h0, col_start0, col_window0]; simp
    · intro hi
      funext a
      refine Fin.ext ?_
      match a with
      | ⟨0, _⟩ =>
        show ((colDims n e wf).start j idx 0 + ((colDims n e wf).window j 0 : ℕ)).toNat = (i 0).val
        rw [col_start0, col_window0, hi]; simp
      | ⟨1, _⟩ =>
        show ((colDims n e wf).start j idx 1 + ((colDims n e wf).window j 1 : ℕ)).toNat = (i 1).val
        rw [col_start1, col_window1, hj1, hi1]; simp
  · constructor
    · intro hi; exact absurd hi (by simp)
    · intro hi
      exfalso; apply h
      intro a
      match a with
      | ⟨0, _⟩ =>
        show 0 ≤ (colDims n e wf).start j idx 0 + ((colDims n e wf).window j 0 : ℕ)
          ∧ (colDims n e wf).start j idx 0 + ((colDims n e wf).window j 0 : ℕ) < ((⟨2, ![n, 1]⟩ : Shape).size 0 : ℕ)
        rw [col_start0, col_window0, hi]
        have := (i 0).isLt
        constructor <;> omega
      | ⟨1, _⟩ =>
        show 0 ≤ (colDims n e wf).start j idx 1 + ((colDims n e wf).window j 1 : ℕ)
          ∧ (colDims n e wf).start j idx 1 + ((colDims n e wf).window j 1 : ℕ) < ((⟨2, ![n, 1]⟩ : Shape).size 1 : ℕ)
        rw [col_start1, col_window1, hj1]
        have : ((⟨2, ![n, 1]⟩ : Shape).size 1 : ℕ) = 1 := rfl
        constructor <;> omega

/-- THE ONE-COLUMN SCATTER READ AT `i`: the operand there plus the updates of the rows whose segment id is
    `i`'s row. -/
theorem col_apply (x : (⟨2, ![n, 1]⟩ : Shape).Idx → EReal) (idx : IVec ⟨2, ![e, 1]⟩ w)
    (upd : (⟨2, ![e, 1]⟩ : Shape).Idx → EReal) (i : (⟨2, ![n, 1]⟩ : Shape).Idx) :
    Ideal.hostScatterAdd (colDims n e wf) x idx upd i
      = x i + ∑ k : Fin e, if (idx (ix2 k 0)).toInt = ((i 0).val : ℤ) then upd (ix2 k 0) else 0 := by
  unfold Ideal.hostScatterAdd
  refine congrArg (x i + ·) ?_
  rw [Finset.sum_filter]
  refine Fintype.sum_equiv rowEquiv2 _ _ fun j => ?_
  show _ = if (idx (ix2 (j 0) 0)).toInt = ((i 0).val : ℤ) then upd (ix2 (j 0) 0) else 0
  have hj : ix2 (j 0) (0 : Fin 1) = j := rowEquiv2.left_inv j
  by_cases h : (idx (ix2 (j 0) 0)).toInt = ((i 0).val : ℤ)
  · rw [if_pos ((col_resultIdx wf j idx i).mpr h), if_pos h]
    exact congrArg upd hj.symm
  · rw [if_neg (mt (col_resultIdx wf j idx i).mp h), if_neg h]

end Col

end Idealize.ShloMosaic.SegmentSum

end
-- ==== Proof.KernelLayer.lean ====
/-
  One layer of the idealized kernel program as the whole-array function `Cert.Gcn.layerArrK` of its inputs.

  Between its two regions a layer scales every row of the projected features `h` by its node's factor, gathers
  every edge's source row (the source id wrapped and clamped), and sums the gathered rows into their target rows
  with an accumulating scatter onto zeros; the combine region then scales the sum by the target node's own factor,
  adds the self loop `h * (d * d)` and the bias, and rectifies. Entry by entry that is `Cert.Gcn.layerK`.
-/
import proofs.«129485_j137438953659_2_alg».proof.KernelIdeal
import proofs.«129485_j137438953659_2_alg».proof.Proof.Gen.KernelIdeal
import proofs.«129485_j137438953659_2_alg».proof.Proof.LayerLaw
import proofs.«129485_j137438953659_2_alg».proof.Proof.LibRowOps
import proofs.«129485_j137438953659_2_alg».proof.Proof.LibSegmentSum
import Idealize.ShloMosaic.Lib.Pipeline.Value
import Idealize.ShloMosaic.Lib.ValueLayout
import Idealize.ShloMosaic.PureOps.Ideal.Laws

noncomputable section

namespace Cert.KernelIdeal.LayerValue

open Cert.KernelIdeal Cert.KernelIdeal.Gen Idealize.ShloMosaic Idealize.ShloMosaic.ValueIdx
open Idealize.ShloMosaic.RowOps
open scoped BigOperators

/-- The edges' source ids with a negative id wrapped around by the number of nodes. -/
def wrapIds (src : IVec S1200000 32) : IVec S1200000 32 :=
  select (cmpi .slt src (broadcastInDim S1200000 ![] bcast_S_S1200000 (constantI S_ 32 0#32)))
    (addi src (broadcastInDim S1200000 ![] bcast_S_S1200000 (constantI S_ 32 100000#32))) src

/-- The neighbour sums: every edge's source row of `h`, scaled by the source's factor, summed into the edge's
    target row. -/
def aggOf (h : FVec Ideal S100000x64 .f32) (d : FVec Ideal S100000 .f32) (src dst : IVec S1200000 32) : FVec Ideal S100000x64 .f32 :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 dst)
    (Host.gather gather_S100000x64_S1200000x1_S1200000x64_1_0_n_n_0_1_164
      (mulf h (broadcastInDim S100000x64 ![0, 1] bcast_S100000x1_S100000x64_0_1
        (broadcastInDim S100000x1 ![0] bcast_S100000_S100000x1_0 d)))
      (broadcastInDim S1200000x1 ![0] bcast_S1200000_S1200000x1_0 (wrapIds src)))

/-- A whole layer: the product region, the neighbour sums, the combine region. -/
def layerOf (hin : FVec Ideal S100000x64 .f32) (W : FVec Ideal S64x64 .f32) (b : FVec Ideal S64 .f32)
    (d : FVec Ideal S100000 .f32) (src dst : IVec S1200000 32) : FVec Ideal S100000x64 .f32 :=
  Cert.Gcn.comb (Cert.Gcn.mm hin W) (aggOf (Cert.Gcn.mm hin W) d src dst)
    (shapeCast S100000x1 d shapeCasts_S100000_S100000x1) (shapeCast S1x64 b shapeCasts_S64_S1x64)

/-- Edge `e`'s source node: its id wrapped and clamped. -/
def srcwK (src : IVec S1200000 32) : Fin 1200000 → Fin 100000 :=
  fun e => clampRow 100000 (by norm_num) (wrapIds src (ix1 e))

/-! ## The layout operations of a layer, read at an index -/

/-- The operand the neighbour sums accumulate onto is zero everywhere. -/
theorem zeros_apply (i : S100000x64.Idx) :
    broadcastInDim S100000x64 ![] bcast_S_S100000x64 (constant (F := Ideal) S_ .f32 0x00000000#32) i = 0 :=
  (broadcastInDim_apply _ bcast_S_S100000x64 _ i ix0 (fun a => a.elim0)).trans
    ((constant_apply _ _).trans Ideal.ofBits_zero_f32)

/-- The factors broadcast to a column and then along the rows read, at `(k, c)`, node `k`'s factor. -/
theorem dfac_apply (d : FVec Ideal S100000 .f32) (k : Fin 100000) (c : Fin 64) :
    broadcastInDim S100000x64 ![0, 1] bcast_S100000x1_S100000x64_0_1
      (broadcastInDim S100000x1 ![0] bcast_S100000_S100000x1_0 d) (ix2 k c) = d (ix1 k) := by
  refine (broadcastInDim_apply ![0, 1] bcast_S100000x1_S100000x64_0_1 _ (ix2 k c) (ix2 k (0 : Fin 1)) (fun a => ?_)).trans ?_
  · match a with
    | ⟨0, _⟩ => exact (if_neg (show ¬ (100000 = 1) by norm_num)).symm
    | ⟨1, _⟩ => rfl
  · exact SegmentSum.ids_apply bcast_S100000_S100000x1_0 (by norm_num) d k

/-- The factors reshaped to a column read, at `(r, 0)`, node `r`'s factor. -/
theorem dcol_apply (d : FVec Ideal S100000 .f32) (r : Fin 100000) :
    shapeCast S100000x1 d shapeCasts_S100000_S100000x1 (ix2 r (0 : Fin 1)) = d (ix1 r) := by
  refine shapeCast_apply d shapeCasts_S100000_S100000x1 (ix2 r 0) (ix1 r) ?_
  rw [Shape.rowMajor_val_two, Shape.rowMajor_val_one]; show r.val = r.val * 1 + 0; omega

/-- The bias reshaped to a row reads, at `(0, c)`, entry `c`. -/
theorem brow_apply (b : FVec Ideal S64 .f32) (c : Fin 64) :
    shapeCast S1x64 b shapeCasts_S64_S1x64 (ix2 (0 : Fin 1) c) = b (ix1 c) := by
  refine shapeCast_apply b shapeCasts_S64_S1x64 (ix2 0 c) (ix1 c) ?_
  rw [Shape.rowMajor_val_two, Shape.rowMajor_val_one]; show c.val = 0 * 64 + c.val; omega

/-- The gathered, scaled source row of edge `e`, read at column `c`. -/
theorem gathered_apply (h : FVec Ideal S100000x64 .f32) (d : FVec Ideal S100000 .f32) (src : IVec S1200000 32)
    (e : Fin 1200000) (c : Fin 64) :
    Host.gather gather_S100000x64_S1200000x1_S1200000x64_1_0_n_n_0_1_164
      (mulf h (broadcastInDim S100000x64 ![0, 1] bcast_S100000x1_S100000x64_0_1
        (broadcastInDim S100000x1 ![0] bcast_S100000_S100000x1_0 d)))
      (broadcastInDim S1200000x1 ![0] bcast_S1200000_S1200000x1_0 (wrapIds src)) (ix2 e c)
      = h (ix2 (srcwK src e) c) * d (ix1 (srcwK src e)) := by
  show Host.gather (rowGatherDims 100000 1200000 64 gather_S100000x64_S1200000x1_S1200000x64_1_0_n_n_0_1_164_wf) _ _ _ = _
  refine (rowGather_apply (by norm_num) gather_S100000x64_S1200000x1_S1200000x64_1_0_n_n_0_1_164_wf _ _ e c).trans ?_
  have hk : clampRow 100000 (by norm_num)
      (broadcastInDim S1200000x1 ![0] bcast_S1200000_S1200000x1_0 (wrapIds src) (ix2 e (0 : Fin 1))) = srcwK src e :=
    congrArg (clampRow 100000 (by norm_num)) (SegmentSum.ids_apply bcast_S1200000_S1200000x1_0 (by norm_num) (wrapIds src) e)
  rw [hk, mulf_apply, dfac_apply]

/-- THE NEIGHBOUR SUMS, entry by entry. -/
theorem aggOf_apply (h : FVec Ideal S100000x64 .f32) (d : FVec Ideal S100000 .f32) (src dst : IVec S1200000 32)
    (r : Fin 100000) (c : Fin 64) :
    aggOf h d src dst (ix2 r c)
      = 0 + ∑ e : Fin 1200000, if (dst (ix1 e)).toInt = (r.val : ℤ) then h (ix2 (srcwK src e) c) * d (ix1 (srcwK src e)) else 0 := by
  unfold aggOf
  rw [SegmentSum.scatterAdd_ideal]
  show Ideal.hostScatterAdd (rowsDims 100000 1200000 64 _) _ _ _ (ix2 r c) = _
  rw [rows_apply, zeros_apply]
  refine congrArg ((0 : EReal) + ·) ?_
  refine Finset.sum_congr rfl fun e _ => ?_
  rw [SegmentSum.ids_apply bcast_S1200000_S1200000x1_0 (by norm_num) dst e, gathered_apply]

/-- THE LAYER, entry by entry. -/
theorem layerOf_eq (hin : FVec Ideal S100000x64 .f32) (W : FVec Ideal S64x64 .f32) (b : FVec Ideal S64 .f32)
    (d : FVec Ideal S100000 .f32) (src dst : IVec S1200000 32) :
    layerOf hin W b d src dst
      = Cert.Gcn.layerArrK (Cert.Gcn.mm hin W) (fun r => d (ix1 r)) (srcwK src) (fun e => (dst (ix1 e)).toInt) (fun c => b (ix1 c)) := by
  funext i
  obtain ⟨r, c, rfl⟩ : ∃ (r : Fin 100000) (c : Fin 64), i = ix2 r c := ⟨i 0, i 1, eq_ix2 i⟩
  unfold layerOf
  rw [Cert.Gcn.comb_apply, Cert.Gcn.layerArrK_apply]
  unfold Cert.Gcn.combAt Cert.Gcn.layerK
  rw [aggOf_apply, dcol_apply, brow_apply]

end Cert.KernelIdeal.LayerValue

end
-- ==== Proof.KernelFold.lean ====
/-
  The idealized kernel program's two results as functions of its seven arguments.

  The buffer contents are folded through the nine segments: a stretch of host operations computes some buffers from
  earlier ones and keeps the rest; a region leaves its result array at the whole-array function of the arrays it found
  (a matrix product, or a finished layer) and keeps every buffer that is not one of its arrays. Read back from the
  last fold, the first result is the second layer `H2`, itself the layer function of the first layer `H1`, and the
  second result joins the two layers' per-graph sums side by side. The edge array enters only through the source
  ids, the target ids and the node factors computed from the target ids.
-/
import proofs.«129485_j137438953659_2_alg».proof.Proof.Gen.KernelIdeal.Frame
import proofs.«129485_j137438953659_2_alg».proof.Proof.RegionMatmul
import proofs.«129485_j137438953659_2_alg».proof.Proof.RegionCombine
import proofs.«129485_j137438953659_2_alg».proof.Proof.KernelLayer
import Idealize.ShloMosaic.Lib.StableHlo.Run

set_option maxRecDepth 16384

noncomputable section

namespace Cert.KernelIdeal.Fold

open Cert.KernelIdeal Cert.KernelIdeal.Gen Cert.KernelIdeal.LayerValue
open Idealize.ShloMosaic Idealize.ShloMosaic.TcCoe Idealize.ShloMosaic.Tactic Idealize.ShloMosaic.StableHlo
open Idealize.SL.Sem

/-! ## The ingredients, as the host operations spell them -/

/-- The edges' source ids: row 0 of the edge array. -/
def srcOf (ei : IVec S2x1200000 32) : IVec S1200000 32 :=
  shapeCast S1200000 (extractStridedSlice S1x1200000 ![0, 0] ei slices_S2x1200000_S1x1200000_0_0) shapeCasts_S1x1200000_S1200000
/-- The edges' target ids: row 1 of the edge array. -/
def dstOf (ei : IVec S2x1200000 32) : IVec S1200000 32 :=
  shapeCast S1200000 (extractStridedSlice S1x1200000 ![1, 0] ei slices_S2x1200000_S1x1200000_1_0) shapeCasts_S1x1200000_S1200000
/-- The node factors: the inverse square root of one plus the number of edges into each node. -/
def dinvOf (dst : IVec S1200000 32) : FVec Ideal S100000 .f32 :=
  Host.rsqrt (F := Ideal) (addf
    (Host.scatterAdd (F := Ideal) scatter_S100000_S1200000x1_S1200000_n_0_0_1
      (broadcastInDim S100000 ![] bcast_S_S100000 (constant (F := Ideal) S_ .f32 0x00000000#32))
      (broadcastInDim S1200000x1 ![0] bcast_S1200000_S1200000x1_0 dst)
      (broadcastInDim S1200000 ![] bcast_S_S1200000 (constant (F := Ideal) S_ .f32 0x3F800000#32)))
    (broadcastInDim S100000 ![] bcast_S_S100000 (constant (F := Ideal) S_ .f32 0x3F800000#32)))
/-- The per-graph sums of a layer's rows. -/
def poolOf (h : FVec Ideal S100000x64 .f32) (bt : IVec S100000 32) : FVec Ideal S64x64 .f32 :=
  Host.scatterAdd (F := Ideal) scatter_S64x64_S100000x1_S100000x64_1_0_0_1
    (broadcastInDim S64x64 ![] bcast_S_S64x64 (constant (F := Ideal) S_ .f32 0x00000000#32))
    (broadcastInDim S100000x1 ![0] bcast_S100000_S100000x1_0 bt) h
/-- Two blocks of sums side by side. -/
def catOf (a b : FVec Ideal S64x64 .f32) : FVec Ideal S64x128 .f32 :=
  concatenate S64x128 1 [⟨S64x64, a⟩, ⟨S64x64, b⟩] concatenates_S64x64_S64x64_S64x128_d1

variable (m : (ℓ : Loc nD τ sig) → Buf (Elt Ideal) ℓ) (ρ : Dev nD → PrngReg) (c : Dev nD)

/-! ## The arguments as launched, and the two layers -/

abbrev X : FVec Ideal S100000x64 .f32 := m ((c : Thread nD τ).loc main_arg0)
abbrev EI : IVec S2x1200000 32 := m ((c : Thread nD τ).loc main_arg1)
abbrev BT : IVec S100000 32 := m ((c : Thread nD τ).loc main_arg2)
abbrev WA : FVec Ideal S64x64 .f32 := m ((c : Thread nD τ).loc main_arg3)
abbrev BA : FVec Ideal S64 .f32 := m ((c : Thread nD τ).loc main_arg4)
abbrev WB : FVec Ideal S64x64 .f32 := m ((c : Thread nD τ).loc main_arg5)
abbrev BB : FVec Ideal S64 .f32 := m ((c : Thread nD τ).loc main_arg6)

/-- The first layer. -/
def H1 : FVec Ideal S100000x64 .f32 :=
  layerOf (X m c) (WA m c) (BA m c) (dinvOf (dstOf (EI m c))) (srcOf (EI m c)) (dstOf (EI m c))
/-- The second layer: the layer function of the first. -/
def H2 : FVec Ideal S100000x64 .f32 :=
  layerOf (H1 m c) (WB m c) (BB m c) (dinvOf (dstOf (EI m c))) (srcOf (EI m c)) (dstOf (EI m c))

/-! ## The fold, boundary by boundary: what each live buffer holds -/

theorem W1_arg0 : W1 m ρ c (Proc.devRef .tc main_arg0) = X m c :=
  by
  show StableHlo.after hostOps0 (W0 m ρ c) (Proc.devRef .tc main_arg0) = _
  after_results_simp

theorem W1_arg2 : W1 m ρ c (Proc.devRef .tc main_arg2) = BT m c :=
  by
  show StableHlo.after hostOps0 (W0 m ρ c) (Proc.devRef .tc main_arg2) = _
  after_results_simp

theorem W1_arg3 : W1 m ρ c (Proc.devRef .tc main_arg3) = WA m c :=
  by
  show StableHlo.after hostOps0 (W0 m ρ c) (Proc.devRef .tc main_arg3) = _
  after_results_simp

theorem W1_arg4 : W1 m ρ c (Proc.devRef .tc main_arg4) = BA m c :=
  by
  show StableHlo.after hostOps0 (W0 m ρ c) (Proc.devRef .tc main_arg4) = _
  after_results_simp

theorem W1_arg5 : W1 m ρ c (Proc.devRef .tc main_arg5) = WB m c :=
  by
  show StableHlo.after hostOps0 (W0 m ρ c) (Proc.devRef .tc main_arg5) = _
  after_results_simp

theorem W1_arg6 : W1 m ρ c (Proc.devRef .tc main_arg6) = BB m c :=
  by
  show StableHlo.after hostOps0 (W0 m ρ c) (Proc.devRef .tc main_arg6) = _
  after_results_simp

theorem W1_v1 : W1 m ρ c (Proc.devRef .tc main_v1) = srcOf (EI m c) :=
  by
  show StableHlo.after hostOps0 (W0 m ρ c) (Proc.devRef .tc main_v1) = _
  after_results_simp
  rfl

theorem W1_v3 : W1 m ρ c (Proc.devRef .tc main_v3) = dstOf (EI m c) :=
  by
  show StableHlo.after hostOps0 (W0 m ρ c) (Proc.devRef .tc main_v3) = _
  after_results_simp
  rfl

theorem W1_v10 : W1 m ρ c (Proc.devRef .tc main_v10) = dinvOf (dstOf (EI m c)) :=
  by
  show StableHlo.after hostOps0 (W0 m ρ c) (Proc.devRef .tc main_v10) = _
  after_results_simp
  rfl

theorem W2_arg2 : W2 m ρ c (Proc.devRef .tc main_arg2) = BT m c :=
  (W2_of_ne m ρ c main_arg2 (by decide)).trans (W1_arg2 m ρ c)

theorem W2_arg4 : W2 m ρ c (Proc.devRef .tc main_arg4) = BA m c :=
  (W2_of_ne m ρ c main_arg4 (by decide)).trans (W1_arg4 m ρ c)

theorem W2_arg5 : W2 m ρ c (Proc.devRef .tc main_arg5) = WB m c :=
  (W2_of_ne m ρ c main_arg5 (by decide)).trans (W1_arg5 m ρ c)

theorem W2_arg6 : W2 m ρ c (Proc.devRef .tc main_arg6) = BB m c :=
  (W2_of_ne m ρ c main_arg6 (by decide)).trans (W1_arg6 m ρ c)

theorem W2_v1 : W2 m ρ c (Proc.devRef .tc main_v1) = srcOf (EI m c) :=
  (W2_of_ne m ρ c main_v1 (by decide)).trans (W1_v1 m ρ c)

theorem W2_v3 : W2 m ρ c (Proc.devRef .tc main_v3) = dstOf (EI m c) :=
  (W2_of_ne m ρ c main_v3 (by decide)).trans (W1_v3 m ρ c)

theorem W2_v10 : W2 m ρ c (Proc.devRef .tc main_v10) = dinvOf (dstOf (EI m c)) :=
  (W2_of_ne m ρ c main_v10 (by decide)).trans (W1_v10 m ρ c)

theorem W2_v11 : W2 m ρ c (Proc.devRef .tc main_v11) = Cert.Gcn.mm (X m c) (WA m c) := by
  refine (W2_arr m ρ c 2).trans ((RegionMatmul.mm0_final (V1 m ρ) c).trans ?_)
  show Cert.Gcn.mm (W1 m ρ c (Proc.devRef .tc main_arg0)) (W1 m ρ c (Proc.devRef .tc main_arg3)) = _
  rw [W1_arg0 m ρ c, W1_arg3 m ρ c]

theorem W3_v11 : W3 m ρ c (Proc.devRef .tc main_v11) = Cert.Gcn.mm (X m c) (WA m c) :=
  (show StableHlo.after hostOps1 (W2 m ρ c) (Proc.devRef .tc main_v11) = W2 m ρ c (Proc.devRef .tc main_v11) by after_results_simp).trans (W2_v11 m ρ c)

theorem W3_arg2 : W3 m ρ c (Proc.devRef .tc main_arg2) = BT m c :=
  (show StableHlo.after hostOps1 (W2 m ρ c) (Proc.devRef .tc main_arg2) = W2 m ρ c (Proc.devRef .tc main_arg2) by after_results_simp).trans (W2_arg2 m ρ c)

theorem W3_arg5 : W3 m ρ c (Proc.devRef .tc main_arg5) = WB m c :=
  (show StableHlo.after hostOps1 (W2 m ρ c) (Proc.devRef .tc main_arg5) = W2 m ρ c (Proc.devRef .tc main_arg5) by after_results_simp).trans (W2_arg5 m ρ c)

theorem W3_arg6 : W3 m ρ c (Proc.devRef .tc main_arg6) = BB m c :=
  (show StableHlo.after hostOps1 (W2 m ρ c) (Proc.devRef .tc main_arg6) = W2 m ρ c (Proc.devRef .tc main_arg6) by after_results_simp).trans (W2_arg6 m ρ c)

theorem W3_v1 : W3 m ρ c (Proc.devRef .tc main_v1) = srcOf (EI m c) :=
  (show StableHlo.after hostOps1 (W2 m ρ c) (Proc.devRef .tc main_v1) = W2 m ρ c (Proc.devRef .tc main_v1) by after_results_simp).trans (W2_v1 m ρ c)

theorem W3_v3 : W3 m ρ c (Proc.devRef .tc main_v3) = dstOf (EI m c) :=
  (show StableHlo.after hostOps1 (W2 m ρ c) (Proc.devRef .tc main_v3) = W2 m ρ c (Proc.devRef .tc main_v3) by after_results_simp).trans (W2_v3 m ρ c)

theorem W3_v10 : W3 m ρ c (Proc.devRef .tc main_v10) = dinvOf (dstOf (EI m c)) :=
  (show StableHlo.after hostOps1 (W2 m ρ c) (Proc.devRef .tc main_v10) = W2 m ρ c (Proc.devRef .tc main_v10) by after_results_simp).trans (W2_v10 m ρ c)

theorem W3_v24 : W3 m ρ c (Proc.devRef .tc main_v24) = aggOf (Cert.Gcn.mm (X m c) (WA m c)) (dinvOf (dstOf (EI m c))) (srcOf (EI m c)) (dstOf (EI m c)) :=
  by
  show StableHlo.after hostOps1 (W2 m ρ c) (Proc.devRef .tc main_v24) = _
  after_results_simp
  rw [W2_v11 m ρ c, W2_v10 m ρ c, W2_v1 m ρ c, W2_v3 m ρ c]
  rfl

theorem W3_v25 : W3 m ρ c (Proc.devRef .tc main_v25) = shapeCast S100000x1 (dinvOf (dstOf (EI m c))) shapeCasts_S100000_S100000x1 :=
  by
  show StableHlo.after hostOps1 (W2 m ρ c) (Proc.devRef .tc main_v25) = _
  after_results_simp
  rw [W2_v10 m ρ c]
  rfl

theorem W3_v26 : W3 m ρ c (Proc.devRef .tc main_v26) = shapeCast S1x64 (BA m c) shapeCasts_S64_S1x64 :=
  by
  show StableHlo.after hostOps1 (W2 m ρ c) (Proc.devRef .tc main_v26) = _
  after_results_simp
  rw [W2_arg4 m ρ c]
  rfl

theorem W4_arg2 : W4 m ρ c (Proc.devRef .tc main_arg2) = BT m c :=
  (W4_of_ne m ρ c main_arg2 (by decide)).trans (W3_arg2 m ρ c)

theorem W4_arg5 : W4 m ρ c (Proc.devRef .tc main_arg5) = WB m c :=
  (W4_of_ne m ρ c main_arg5 (by decide)).trans (W3_arg5 m ρ c)

theorem W4_arg6 : W4 m ρ c (Proc.devRef .tc main_arg6) = BB m c :=
  (W4_of_ne m ρ c main_arg6 (by decide)).trans (W3_arg6 m ρ c)

theorem W4_v1 : W4 m ρ c (Proc.devRef .tc main_v1) = srcOf (EI m c) :=
  (W4_of_ne m ρ c main_v1 (by decide)).trans (W3_v1 m ρ c)

theorem W4_v3 : W4 m ρ c (Proc.devRef .tc main_v3) = dstOf (EI m c) :=
  (W4_of_ne m ρ c main_v3 (by decide)).trans (W3_v3 m ρ c)

theorem W4_v10 : W4 m ρ c (Proc.devRef .tc main_v10) = dinvOf (dstOf (EI m c)) :=
  (W4_of_ne m ρ c main_v10 (by decide)).trans (W3_v10 m ρ c)

theorem W4_v27 : W4 m ρ c (Proc.devRef .tc main_v27) = H1 m c := by
  refine (W4_arr m ρ c 4).trans ((RegionCombine.comb1_final (V3 m ρ) c).trans ?_)
  show Cert.Gcn.comb (W3 m ρ c (Proc.devRef .tc main_v11)) (W3 m ρ c (Proc.devRef .tc main_v24)) (W3 m ρ c (Proc.devRef .tc main_v25)) (W3 m ρ c (Proc.devRef .tc main_v26)) = _
  rw [W3_v11 m ρ c, W3_v24 m ρ c, W3_v25 m ρ c, W3_v26 m ρ c]
  rfl

theorem W5_v27 : W5 m ρ c (Proc.devRef .tc main_v27) = H1 m c :=
  (show StableHlo.after hostOps2 (W4 m ρ c) (Proc.devRef .tc main_v27) = W4 m ρ c (Proc.devRef .tc main_v27) by after_results_simp).trans (W4_v27 m ρ c)

theorem W5_arg2 : W5 m ρ c (Proc.devRef .tc main_arg2) = BT m c :=
  (show StableHlo.after hostOps2 (W4 m ρ c) (Proc.devRef .tc main_arg2) = W4 m ρ c (Proc.devRef .tc main_arg2) by after_results_simp).trans (W4_arg2 m ρ c)

theorem W5_arg5 : W5 m ρ c (Proc.devRef .tc main_arg5) = WB m c :=
  (show StableHlo.after hostOps2 (W4 m ρ c) (Proc.devRef .tc main_arg5) = W4 m ρ c (Proc.devRef .tc main_arg5) by after_results_simp).trans (W4_arg5 m ρ c)

theorem W5_arg6 : W5 m ρ c (Proc.devRef .tc main_arg6) = BB m c :=
  (show StableHlo.after hostOps2 (W4 m ρ c) (Proc.devRef .tc main_arg6) = W4 m ρ c (Proc.devRef .tc main_arg6) by after_results_simp).trans (W4_arg6 m ρ c)

theorem W5_v1 : W5 m ρ c (Proc.devRef .tc main_v1) = srcOf (EI m c) :=
  (show StableHlo.after hostOps2 (W4 m ρ c) (Proc.devRef .tc main_v1) = W4 m ρ c (Proc.devRef .tc main_v1) by after_results_simp).trans (W4_v1 m ρ c)

theorem W5_v3 : W5 m ρ c (Proc.devRef .tc main_v3) = dstOf (EI m c) :=
  (show StableHlo.after hostOps2 (W4 m ρ c) (Proc.devRef .tc main_v3) = W4 m ρ c (Proc.devRef .tc main_v3) by after_results_simp).trans (W4_v3 m ρ c)

theorem W5_v10 : W5 m ρ c (Proc.devRef .tc main_v10) = dinvOf (dstOf (EI m c)) :=
  (show StableHlo.after hostOps2 (W4 m ρ c) (Proc.devRef .tc main_v10) = W4 m ρ c (Proc.devRef .tc main_v10) by after_results_simp).trans (W4_v10 m ρ c)

theorem W5_v30 : W5 m ρ c (Proc.devRef .tc main_v30) = poolOf (H1 m c) (BT m c) :=
  by
  show StableHlo.after hostOps2 (W4 m ρ c) (Proc.devRef .tc main_v30) = _
  after_results_simp
  rw [W4_v27 m ρ c, W4_arg2 m ρ c]
  rfl

theorem W6_arg2 : W6 m ρ c (Proc.devRef .tc main_arg2) = BT m c :=
  (W6_of_ne m ρ c main_arg2 (by decide)).trans (W5_arg2 m ρ c)

theorem W6_arg6 : W6 m ρ c (Proc.devRef .tc main_arg6) = BB m c :=
  (W6_of_ne m ρ c main_arg6 (by decide)).trans (W5_arg6 m ρ c)

theorem W6_v1 : W6 m ρ c (Proc.devRef .tc main_v1) = srcOf (EI m c) :=
  (W6_of_ne m ρ c main_v1 (by decide)).trans (W5_v1 m ρ c)

theorem W6_v3 : W6 m ρ c (Proc.devRef .tc main_v3) = dstOf (EI m c) :=
  (W6_of_ne m ρ c main_v3 (by decide)).trans (W5_v3 m ρ c)

theorem W6_v10 : W6 m ρ c (Proc.devRef .tc main_v10) = dinvOf (dstOf (EI m c)) :=
  (W6_of_ne m ρ c main_v10 (by decide)).trans (W5_v10 m ρ c)

theorem W6_v30 : W6 m ρ c (Proc.devRef .tc main_v30) = poolOf (H1 m c) (BT m c) :=
  (W6_of_ne m ρ c main_v30 (by decide)).trans (W5_v30 m ρ c)

theorem W6_v31 : W6 m ρ c (Proc.devRef .tc main_v31) = Cert.Gcn.mm (H1 m c) (WB m c) := by
  refine (W6_arr m ρ c 2).trans ((RegionMatmul.mm2_final (V5 m ρ) c).trans ?_)
  show Cert.Gcn.mm (W5 m ρ c (Proc.devRef .tc main_v27)) (W5 m ρ c (Proc.devRef .tc main_arg5)) = _
  rw [W5_v27 m ρ c, W5_arg5 m ρ c]

theorem W7_v31 : W7 m ρ c (Proc.devRef .tc main_v31) = Cert.Gcn.mm (H1 m c) (WB m c) :=
  (show StableHlo.after hostOps3 (W6 m ρ c) (Proc.devRef .tc main_v31) = W6 m ρ c (Proc.devRef .tc main_v31) by after_results_simp).trans (W6_v31 m ρ c)

theorem W7_arg2 : W7 m ρ c (Proc.devRef .tc main_arg2) = BT m c :=
  (show StableHlo.after hostOps3 (W6 m ρ c) (Proc.devRef .tc main_arg2) = W6 m ρ c (Proc.devRef .tc main_arg2) by after_results_simp).trans (W6_arg2 m ρ c)

theorem W7_v30 : W7 m ρ c (Proc.devRef .tc main_v30) = poolOf (H1 m c) (BT m c) :=
  (show StableHlo.after hostOps3 (W6 m ρ c) (Proc.devRef .tc main_v30) = W6 m ρ c (Proc.devRef .tc main_v30) by after_results_simp).trans (W6_v30 m ρ c)

theorem W7_v44 : W7 m ρ c (Proc.devRef .tc main_v44) = aggOf (Cert.Gcn.mm (H1 m c) (WB m c)) (dinvOf (dstOf (EI m c))) (srcOf (EI m c)) (dstOf (EI m c)) :=
  by
  show StableHlo.after hostOps3 (W6 m ρ c) (Proc.devRef .tc main_v44) = _
  after_results_simp
  rw [W6_v31 m ρ c, W6_v10 m ρ c, W6_v1 m ρ c, W6_v3 m ρ c]
  rfl

theorem W7_v45 : W7 m ρ c (Proc.devRef .tc main_v45) = shapeCast S100000x1 (dinvOf (dstOf (EI m c))) shapeCasts_S100000_S100000x1 :=
  by
  show StableHlo.after hostOps3 (W6 m ρ c) (Proc.devRef .tc main_v45) = _
  after_results_simp
  rw [W6_v10 m ρ c]
  rfl

theorem W7_v46 : W7 m ρ c (Proc.devRef .tc main_v46) = shapeCast S1x64 (BB m c) shapeCasts_S64_S1x64 :=
  by
  show StableHlo.after hostOps3 (W6 m ρ c) (Proc.devRef .tc main_v46) = _
  after_results_simp
  rw [W6_arg6 m ρ c]
  rfl

theorem W8_arg2 : W8 m ρ c (Proc.devRef .tc main_arg2) = BT m c :=
  (W8_of_ne m ρ c main_arg2 (by decide)).trans (W7_arg2 m ρ c)

theorem W8_v30 : W8 m ρ c (Proc.devRef .tc main_v30) = poolOf (H1 m c) (BT m c) :=
  (W8_of_ne m ρ c main_v30 (by decide)).trans (W7_v30 m ρ c)

theorem W8_v47 : W8 m ρ c (Proc.devRef .tc main_v47) = H2 m c := by
  refine (W8_arr m ρ c 4).trans ((RegionCombine.comb3_final (V7 m ρ) c).trans ?_)
  show Cert.Gcn.comb (W7 m ρ c (Proc.devRef .tc main_v31)) (W7 m ρ c (Proc.devRef .tc main_v44)) (W7 m ρ c (Proc.devRef .tc main_v45)) (W7 m ρ c (Proc.devRef .tc main_v46)) = _
  rw [W7_v31 m ρ c, W7_v44 m ρ c, W7_v45 m ρ c, W7_v46 m ρ c]
  rfl

theorem W9_v47 : W9 m ρ c (Proc.devRef .tc main_v47) = H2 m c :=
  (show StableHlo.after hostOps4 (W8 m ρ c) (Proc.devRef .tc main_v47) = W8 m ρ c (Proc.devRef .tc main_v47) by after_results_simp).trans (W8_v47 m ρ c)

theorem W9_v51 : W9 m ρ c (Proc.devRef .tc main_v51) = catOf (poolOf (H1 m c) (BT m c)) (poolOf (H2 m c) (BT m c)) :=
  by
  show StableHlo.after hostOps4 (W8 m ρ c) (Proc.devRef .tc main_v51) = _
  simp only [after_cons, after_nil]
  rw [binary_result]
  unfold catOf
  refine congrArg₂ (fun a b => concatenate S64x128 1 [⟨S64x64, a⟩, ⟨S64x64, b⟩] concatenates_S64x64_S64x64_S64x128_d1) ?_ ?_
  · after_results_simp
    exact W8_v30 m ρ c
  · after_results_simp
    rw [W8_v47 m ρ c, W8_arg2 m ρ c]
    rfl

end Cert.KernelIdeal.Fold

end
-- ==== Proof.RefLayer.lean ====
/-
  The reference program's two layers, each as the whole-array function `Cert.Gcn.layerArrR` of its inputs.

  From the edge array the reference computes, once, the node factors `d` (the inverse square root of one plus the
  number of edges into each node), the wrapped and clamped source and target node of every edge, and the signed
  target id the accumulating scatter reads. A layer multiplies its input by the weights, gathers every edge's source
  row, scales it by the edge's weight `d src * d dst`, sums the rows into their targets, adds the self loop
  `h * (d * d)` and the bias, and rectifies: entry by entry that is `Cert.Gcn.layerR`. The second layer is the same
  function of the first layer's output. Two facts about the ingredients close the comparison with the other
  arrangement: every factor is a nonnegative real, and an edge the scatter lands on row `r` has target node `r`.
-/
import proofs.«129485_j137438953659_2_alg».proof.Proof.Gen.ReferenceIdeal.Read
import proofs.«129485_j137438953659_2_alg».proof.Proof.LayerLaw
import proofs.«129485_j137438953659_2_alg».proof.Proof.LibRowOps
import proofs.«129485_j137438953659_2_alg».proof.Proof.LibSegmentSum
import proofs.«129485_j137438953659_2_alg».proof.Proof.LibScaleSum
import Idealize.ShloMosaic.Lib.ValueLayout

noncomputable section

namespace Cert.ReferenceIdeal.RefValue

open Cert.ReferenceIdeal Cert.ReferenceIdeal.Read Idealize.ShloMosaic Idealize.ShloMosaic.ValueIdx
open Idealize.ShloMosaic.RowOps
open scoped BigOperators

/-- Node `r`'s factor. -/
def dR (x1 : (⟨S2x1200000, .i32⟩ : BufTy).Contents (Elt Ideal)) : Fin 100000 → EReal :=
  fun r => val_main_v10 (F := Ideal) x1 (ix1 r)
/-- Edge `e`'s source node: its id wrapped and clamped. -/
def srcwR (x1 : (⟨S2x1200000, .i32⟩ : BufTy).Contents (Elt Ideal)) : Fin 1200000 → Fin 100000 :=
  fun e => clampRow 100000 (by norm_num) (val_main_v16 (F := Ideal) x1 (ix1 e))
/-- Edge `e`'s target node: its id wrapped and clamped. -/
def dstwR (x1 : (⟨S2x1200000, .i32⟩ : BufTy).Contents (Elt Ideal)) : Fin 1200000 → Fin 100000 :=
  fun e => clampRow 100000 (by norm_num) (val_main_v23 (F := Ideal) x1 (ix1 e))
/-- Edge `e`'s target id as the scatter reads it: a signed integer. -/
def dstIdR (x1 : (⟨S2x1200000, .i32⟩ : BufTy).Contents (Elt Ideal)) : Fin 1200000 → ℤ :=
  fun e => (val_main_v3 (F := Ideal) x1 (ix1 e)).toInt
/-- A bias vector by its entries. -/
def biasR (x4 : (⟨S64, .f32⟩ : BufTy).Contents (Elt Ideal)) : Fin 64 → EReal := fun c => x4 (ix1 c)

/-! ## The pieces of a layer, read at an index -/

/-- The matrix product of the reference is the product of the specification, as arrays. -/
theorem v11_eq_mm (X : (⟨S100000x64, .f32⟩ : BufTy).Contents (Elt Ideal)) (W : (⟨S64x64, .f32⟩ : BufTy).Contents (Elt Ideal)) :
    val_main_v11 (F := Ideal) X W = Cert.Gcn.mm X W := by
  funext i
  obtain ⟨r, c, rfl⟩ : ∃ (r : Fin 100000) (c : Fin 64), i = ix2 r c := ⟨i 0, i 1, eq_ix2 i⟩
  rw [val_main_v11_apply, Cert.Gcn.mm_apply]
  unfold Cert.Gcn.mmAt
  refine Finset.sum_congr rfl fun k _ => ?_
  have hl : lidx_main_v11 (ix2 r c) k = ix2 r k := by
    funext a; match a with | ⟨0, _⟩ => rfl | ⟨1, _⟩ => rfl
  have hr : ridx_main_v11 (ix2 r c) k = ix2 k c := by
    funext a; match a with | ⟨0, _⟩ => rfl | ⟨1, _⟩ => rfl
  rw [hl, hr]

/-- The rectifier's zero. -/
theorem zero48_apply (i : S100000x64.Idx) : val_main_call0_v0 (F := Ideal) i = 0 := by
  rw [val_main_call0_v0_apply, val_main_call0_cst_apply]
  exact Ideal.ofBits_zero_f32

/-- The scatter's operand is zero. -/
theorem zero37_apply (i : S100000x64.Idx) : val_main_v37 (F := Ideal) i = 0 := by
  rw [val_main_v37_apply, val_main_cst_7_apply]
  exact Ideal.ofBits_zero_f32

/-- The bias, broadcast over the rows. -/
theorem bias46_apply (b : (⟨S64, .f32⟩ : BufTy).Contents (Elt Ideal)) (r : Fin 100000) (c : Fin 64) :
    val_main_v46 (F := Ideal) b (ix2 r c) = biasR b c := by
  rw [val_main_v46_apply, val_main_v45_apply]
  unfold biasR
  refine congrArg b ?_
  funext a; match a with | ⟨0, _⟩ => rfl

/-- The self-loop factor, broadcast over the columns: the square of the node's factor. -/
theorem self42_apply (x1 : (⟨S2x1200000, .i32⟩ : BufTy).Contents (Elt Ideal)) (r : Fin 100000) (c : Fin 64) :
    val_main_v42 (F := Ideal) x1 (ix2 r c) = dR x1 r * dR x1 r := by
  rw [val_main_v42_apply, val_main_v41_apply, val_main_v40_apply]
  have hi : idx_main_v41 (idx_main_v42 (ix2 r c)) = ix1 r := by
    funext a; match a with | ⟨0, _⟩ => rfl
  rw [hi]
  rfl

/-- The scatter's ids column reads the signed target id. -/
theorem ids38_apply (x1 : (⟨S2x1200000, .i32⟩ : BufTy).Contents (Elt Ideal)) (e : Fin 1200000) :
    (val_main_v38 (F := Ideal) x1 (ix2 e (0 : Fin 1))).toInt = dstIdR x1 e := by
  rw [val_main_v38_apply]
  unfold dstIdR
  have hi : idx_main_v38 (ix2 e (0 : Fin 1)) = ix1 e := by
    funext a; match a with | ⟨0, _⟩ => rfl
  rw [hi]

/-- The source ids column of the factor gather. -/
theorem ids17_apply (x1 : (⟨S2x1200000, .i32⟩ : BufTy).Contents (Elt Ideal)) (e : Fin 1200000) :
    val_main_v17 (F := Ideal) x1 (ix2 e (0 : Fin 1)) = val_main_v16 (F := Ideal) x1 (ix1 e) := by
  rw [val_main_v17_apply]
  refine congrArg (val_main_v16 (F := Ideal) x1) ?_
  funext a; match a with | ⟨0, _⟩ => rfl

/-- The target ids column of the factor gather. -/
theorem ids24_apply (x1 : (⟨S2x1200000, .i32⟩ : BufTy).Contents (Elt Ideal)) (e : Fin 1200000) :
    val_main_v24 (F := Ideal) x1 (ix2 e (0 : Fin 1)) = val_main_v23 (F := Ideal) x1 (ix1 e) := by
  rw [val_main_v24_apply]
  refine congrArg (val_main_v23 (F := Ideal) x1) ?_
  funext a; match a with | ⟨0, _⟩ => rfl

/-- The source ids column of the row gather: the same wrapped source ids. -/
theorem ids32_apply (x1 : (⟨S2x1200000, .i32⟩ : BufTy).Contents (Elt Ideal)) (e : Fin 1200000) :
    val_main_v32 (F := Ideal) x1 (ix2 e (0 : Fin 1)) = val_main_v16 (F := Ideal) x1 (ix1 e) := by
  rw [val_main_v32_apply]
  have hi : idx_main_v32 (ix2 e (0 : Fin 1)) = ix1 e := by
    funext a; match a with | ⟨0, _⟩ => rfl
  rw [hi]
  rfl

/-- An edge's weight: the product of its two ends' factors. -/
theorem w26_apply (x1 : (⟨S2x1200000, .i32⟩ : BufTy).Contents (Elt Ideal)) (e : Fin 1200000) :
    val_main_v26 (F := Ideal) x1 (ix1 e) = dR x1 (srcwR x1 e) * dR x1 (dstwR x1 e) := by
  rw [val_main_v26_apply]
  have h18 : val_main_v18 (F := Ideal) x1 (ix1 e) = dR x1 (srcwR x1 e) := by
    unfold val_main_v18
    show Host.gather (vecGatherDims 100000 1200000 _) (val_main_v10 (F := Ideal) x1) (val_main_v17 (F := Ideal) x1) (ix1 e) = _
    rw [vecGather_apply (n := 100000) (by norm_num), ids17_apply]
    rfl
  have h25 : val_main_v25 (F := Ideal) x1 (ix1 e) = dR x1 (dstwR x1 e) := by
    unfold val_main_v25
    show Host.gather (vecGatherDims 100000 1200000 _) (val_main_v10 (F := Ideal) x1) (val_main_v24 (F := Ideal) x1) (ix1 e) = _
    rw [vecGather_apply (n := 100000) (by norm_num), ids24_apply]
    rfl
  rw [h18, h25]
  rfl

/-- The weight, broadcast over the columns. -/
theorem w35_apply (x1 : (⟨S2x1200000, .i32⟩ : BufTy).Contents (Elt Ideal)) (e : Fin 1200000) (c : Fin 64) :
    val_main_v35 (F := Ideal) x1 (ix2 e c) = dR x1 (srcwR x1 e) * dR x1 (dstwR x1 e) := by
  rw [val_main_v35_apply, val_main_v34_apply]
  have hi : idx_main_v34 (idx_main_v35 (ix2 e c)) = ix1 e := by
    funext a; match a with | ⟨0, _⟩ => rfl
  rw [hi, w26_apply]

/-- One layer of the reference as a function of the projected features, the edge array and the bias. -/
def layerOf (h : (⟨S100000x64, .f32⟩ : BufTy).Contents (Elt Ideal)) (x1 : (⟨S2x1200000, .i32⟩ : BufTy).Contents (Elt Ideal))
    (b : (⟨S64, .f32⟩ : BufTy).Contents (Elt Ideal)) : (⟨S100000x64, .f32⟩ : BufTy).Contents (Elt Ideal) :=
  maximumf (F := Ideal) (s := S100000x64) (φ := .f32)
    (addf (F := Ideal) (s := S100000x64) (φ := .f32)
      (addf (F := Ideal) (s := S100000x64) (φ := .f32)
        (Host.scatterAdd (F := Ideal) (φ := .f32) scatter_S100000x64_S1200000x1_S1200000x64_1_0_0_1 (val_main_v37 (F := Ideal)) (val_main_v38 (F := Ideal) x1)
          (mulf (F := Ideal) (s := S1200000x64) (φ := .f32) (Host.gather gather_S100000x64_S1200000x1_S1200000x64_1_0_n_n_0_1_164 h (val_main_v32 (F := Ideal) x1))
            (val_main_v35 (F := Ideal) x1)))
        (mulf (F := Ideal) (s := S100000x64) (φ := .f32) h (val_main_v42 (F := Ideal) x1)))
      (val_main_v46 (F := Ideal) b))
    (val_main_call0_v0 (F := Ideal))

/-- The neighbour sum of a layer at an entry. -/
theorem agg_apply (h : (⟨S100000x64, .f32⟩ : BufTy).Contents (Elt Ideal)) (x1 : (⟨S2x1200000, .i32⟩ : BufTy).Contents (Elt Ideal))
    (r : Fin 100000) (c : Fin 64) :
    Host.scatterAdd (F := Ideal) (φ := .f32) scatter_S100000x64_S1200000x1_S1200000x64_1_0_0_1 (val_main_v37 (F := Ideal)) (val_main_v38 (F := Ideal) x1)
        (mulf (F := Ideal) (s := S1200000x64) (φ := .f32) (Host.gather gather_S100000x64_S1200000x1_S1200000x64_1_0_n_n_0_1_164 h (val_main_v32 (F := Ideal) x1))
          (val_main_v35 (F := Ideal) x1)) (ix2 r c)
      = (0 : EReal) + ∑ e : Fin 1200000, if dstIdR x1 e = (r.val : ℤ)
          then h (ix2 (srcwR x1 e) c) * (dR x1 (srcwR x1 e) * dR x1 (dstwR x1 e)) else 0 := by
  rw [SegmentSum.scatterAdd_ideal]
  show Ideal.hostScatterAdd (rowsDims 100000 1200000 64 _) _ _ _ (ix2 r c) = _
  rw [rows_apply, zero37_apply]
  refine congrArg ((0 : EReal) + ·) ?_
  refine Finset.sum_congr rfl fun e _ => ?_
  rw [ids38_apply, mulf_apply, w35_apply]
  have hg : Host.gather gather_S100000x64_S1200000x1_S1200000x64_1_0_n_n_0_1_164 h (val_main_v32 (F := Ideal) x1) (ix2 e c)
      = h (ix2 (srcwR x1 e) c) := by
    show Host.gather (rowGatherDims 100000 1200000 64 _) h (val_main_v32 (F := Ideal) x1) (ix2 e c) = _
    rw [rowGather_apply (n := 100000) (by norm_num), ids32_apply]
    rfl
  rw [hg]

/-- A layer of the reference, entry by entry, is the layer function in its second arrangement. -/
theorem layerOf_eq (h : (⟨S100000x64, .f32⟩ : BufTy).Contents (Elt Ideal)) (x1 : (⟨S2x1200000, .i32⟩ : BufTy).Contents (Elt Ideal))
    (b : (⟨S64, .f32⟩ : BufTy).Contents (Elt Ideal)) :
    layerOf h x1 b = Cert.Gcn.layerArrR h (dR x1) (srcwR x1) (dstwR x1) (dstIdR x1) (biasR b) := by
  funext i
  obtain ⟨r, c, rfl⟩ : ∃ (r : Fin 100000) (c : Fin 64), i = ix2 r c := ⟨i 0, i 1, eq_ix2 i⟩
  rw [Cert.Gcn.layerArrR_apply]
  unfold Cert.Gcn.layerR layerOf
  rw [maximumf_apply, addf_apply, addf_apply, mulf_apply, zero48_apply, bias46_apply, self42_apply, agg_apply]

/-- The first layer. -/
theorem layer1 (x0 : (⟨S100000x64, .f32⟩ : BufTy).Contents (Elt Ideal)) (x1 : (⟨S2x1200000, .i32⟩ : BufTy).Contents (Elt Ideal))
    (x3 : (⟨S64x64, .f32⟩ : BufTy).Contents (Elt Ideal)) (x4 : (⟨S64, .f32⟩ : BufTy).Contents (Elt Ideal)) :
    val_main_v48 (F := Ideal) x0 x1 x3 x4
      = Cert.Gcn.layerArrR (Cert.Gcn.mm x0 x3) (dR x1) (srcwR x1) (dstwR x1) (dstIdR x1) (biasR x4) := by
  rw [← v11_eq_mm, ← layerOf_eq]
  rfl

/-- The second layer: the same function of the first layer's output. -/
theorem layer2 (x0 : (⟨S100000x64, .f32⟩ : BufTy).Contents (Elt Ideal)) (x1 : (⟨S2x1200000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v89 (F := Ideal) x0 x1 x3 x4 x5 x6
      = Cert.Gcn.layerArrR (Cert.Gcn.mm (val_main_v48 (F := Ideal) x0 x1 x3 x4) x5) (dR x1) (srcwR x1) (dstwR x1) (dstIdR x1) (biasR x6) := by
  rw [← v11_eq_mm, ← layerOf_eq]
  rfl

/-- Every node factor is a nonnegative real. -/
theorem dR_nonneg (x1 : (⟨S2x1200000, .i32⟩ : BufTy).Contents (Elt Ideal)) (r : Fin 100000) :
    ∃ x : ℝ, 0 ≤ x ∧ dR x1 r = (x : EReal) := by
  unfold dR
  rw [val_main_v10_apply, val_main_v9_apply]
  have h7 : val_main_v7 (F := Ideal) x1 (ix1 r)
      = (0 : EReal) + ∑ e : Fin 1200000,
          if (val_main_v6 (F := Ideal) x1 (ix2 e (0 : Fin 1))).toInt = (r.val : ℤ) then (1 : EReal) else 0 := by
    unfold val_main_v7
    rw [SegmentSum.scatterAdd_ideal]
    show Ideal.hostScatterAdd (SegmentSum.flatDims 100000 1200000 _) _ _ _ (ix1 r) = _
    rw [SegmentSum.flat_apply, val_main_v5_apply, val_main_cst_0_apply]
    refine congrArg₂ (· + ·) Ideal.ofBits_zero_f32 ?_
    refine Finset.sum_congr rfl fun e _ => ?_
    rw [val_main_v4_apply, val_main_cst_apply]
    refine congrArg (fun z : EReal => if (val_main_v6 (F := Ideal) x1 (ix2 e (0 : Fin 1))).toInt = (r.val : ℤ) then z else 0) ?_
    exact ScaleSum.ofBits_one
  have h8 : val_main_v8 (F := Ideal) (ix1 r) = (1 : EReal) := by
    rw [val_main_v8_apply, val_main_cst_1_apply]
    exact ScaleSum.ofBits_one
  rw [h7, h8, Ideal.hostUnary_rsqrt_def, Ideal.addf_def]
  exact ScaleSum.rsqrt_count (fun e : Fin 1200000 => (val_main_v6 (F := Ideal) x1 (ix2 e (0 : Fin 1))).toInt = (r.val : ℤ))

/-- An edge whose signed target id is `r` has target node `r`. -/
theorem dst_target (x1 : (⟨S2x1200000, .i32⟩ : BufTy).Contents (Elt Ideal)) (e : Fin 1200000) (r : Fin 100000)
    (h : dstIdR x1 e = (r.val : ℤ)) : dstwR x1 e = r := by
  unfold dstIdR at h
  unfold dstwR
  have hv : val_main_v23 (F := Ideal) x1 (ix1 e) = val_main_v3 (F := Ideal) x1 (ix1 e) := by
    rw [val_main_v23_apply, val_main_v20_apply, val_main_v22_apply, val_main_v19_apply, val_main_c_3_apply]
    exact ScaleSum.wrap_of_nonneg _ _ (by rw [h]; first | exact Int.natCast_nonneg _ | omega)
  rw [hv]
  refine Fin.ext ?_
  show min (val_main_v3 (F := Ideal) x1 (ix1 e)).toInt.toNat (100000 - 1) = r.val
  rw [h, Int.toNat_natCast]
  have := r.isLt
  omega

end Cert.ReferenceIdeal.RefValue

end
-- ==== Proof.Bridge.lean ====
/-
  The kernel program's results and the reference program's results are the same functions of the arguments.

  Both programs derive from the edge array the same three ingredients — the node factors, every edge's wrapped and
  clamped source node, every edge's signed target id — by the same host operations, so those agree as written. One
  layer of the kernel is then `Cert.Gcn.layerArrK` and one layer of the reference `Cert.Gcn.layerArrR` of the same
  ingredients, and the two arrangements are one array because every node factor is a nonnegative real and an edge
  the scatter lands on row `r` has target node `r`. The second layer is the same function of the first layer's
  output, and the per-graph sums and their joining are the same operations on both sides.
-/
import proofs.«129485_j137438953659_2_alg».proof.Proof.KernelFold
import proofs.«129485_j137438953659_2_alg».proof.Proof.RefLayer

noncomputable section

namespace Cert.Proof.Bridge

open Idealize.ShloMosaic Idealize.ShloMosaic.ValueIdx
open Cert.KernelIdeal.Fold Cert.KernelIdeal.LayerValue Cert.ReferenceIdeal.Read

/-- The node factors are computed alike. -/
theorem d_agree (ei : IVec Cert.KernelIdeal.S2x1200000 32) :
    (fun r : Fin 100000 => dinvOf (dstOf ei) (ix1 r)) = Cert.ReferenceIdeal.RefValue.dR ei := rfl

/-- The edges' source nodes are computed alike. -/
theorem src_agree (ei : IVec Cert.KernelIdeal.S2x1200000 32) : srcwK (srcOf ei) = Cert.ReferenceIdeal.RefValue.srcwR ei := rfl

/-- The edges' signed target ids are read alike. -/
theorem dstId_agree (ei : IVec Cert.KernelIdeal.S2x1200000 32) :
    (fun e : Fin 1200000 => (dstOf ei (ix1 e)).toInt) = Cert.ReferenceIdeal.RefValue.dstIdR ei := rfl

/-- ONE LAYER: the kernel's layer of an input is the reference's arrangement of the same ingredients. -/
theorem layer_agree (hin : FVec Ideal Cert.KernelIdeal.S100000x64 .f32) (W : FVec Ideal Cert.KernelIdeal.S64x64 .f32)
    (b : FVec Ideal Cert.KernelIdeal.S64 .f32) (ei : IVec Cert.KernelIdeal.S2x1200000 32) :
    layerOf hin W b (dinvOf (dstOf ei)) (srcOf ei) (dstOf ei)
      = Cert.Gcn.layerArrR (Cert.Gcn.mm hin W) (Cert.ReferenceIdeal.RefValue.dR ei) (Cert.ReferenceIdeal.RefValue.srcwR ei) (Cert.ReferenceIdeal.RefValue.dstwR ei) (Cert.ReferenceIdeal.RefValue.dstIdR ei) (Cert.ReferenceIdeal.RefValue.biasR b) := by
  rw [Cert.KernelIdeal.LayerValue.layerOf_eq, d_agree, src_agree, dstId_agree]
  exact Cert.Gcn.layerArr_eq _ _ _ _ _ _ (Cert.ReferenceIdeal.RefValue.dR_nonneg ei) (fun e r h => Cert.ReferenceIdeal.RefValue.dst_target ei e r h)

/-- THE FIRST RESULT: the reference's second layer is the kernel's. -/
theorem out0_agree (x0 : FVec Ideal Cert.KernelIdeal.S100000x64 .f32) (x1 : IVec Cert.KernelIdeal.S2x1200000 32)
    (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32) :
    val_main_v89 (F := Ideal) x0 x1 x3 x4 x5 x6
      = layerOf (layerOf x0 x3 x4 (dinvOf (dstOf x1)) (srcOf x1) (dstOf x1)) x5 x6 (dinvOf (dstOf x1)) (srcOf x1) (dstOf x1) := by
  rw [Cert.ReferenceIdeal.RefValue.layer2, Cert.ReferenceIdeal.RefValue.layer1, layer_agree, layer_agree]

/-- The reference's first layer is the kernel's. -/
theorem mid_agree (x0 : FVec Ideal Cert.KernelIdeal.S100000x64 .f32) (x1 : IVec Cert.KernelIdeal.S2x1200000 32)
    (x3 : FVec Ideal Cert.KernelIdeal.S64x64 .f32) (x4 : FVec Ideal Cert.KernelIdeal.S64 .f32) :
    val_main_v48 (F := Ideal) x0 x1 x3 x4 = layerOf x0 x3 x4 (dinvOf (dstOf x1)) (srcOf x1) (dstOf x1) := by
  rw [Cert.ReferenceIdeal.RefValue.layer1, layer_agree]

/-- The per-graph sums are the same operation on both sides. -/
theorem pool1_agree (x0 : FVec Ideal Cert.KernelIdeal.S100000x64 .f32) (x1 : IVec Cert.KernelIdeal.S2x1200000 32)
    (x2 : IVec Cert.KernelIdeal.S100000 32) (x3 : FVec Ideal Cert.KernelIdeal.S64x64 .f32) (x4 : FVec Ideal Cert.KernelIdeal.S64 .f32) :
    val_main_v51 (F := Ideal) x0 x1 x2 x3 x4 = poolOf (val_main_v48 (F := Ideal) x0 x1 x3 x4) x2 := rfl

theorem pool2_agree (x0 : FVec Ideal Cert.KernelIdeal.S100000x64 .f32) (x1 : IVec Cert.KernelIdeal.S2x1200000 32)
    (x2 : IVec Cert.KernelIdeal.S100000 32) (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32) :
    val_main_v92 (F := Ideal) x0 x1 x2 x3 x4 x5 x6 = poolOf (val_main_v89 (F := Ideal) x0 x1 x3 x4 x5 x6) x2 := rfl

/-- Joining the two blocks of sums is the same operation on both sides. -/
theorem cat_agree (x0 : FVec Ideal Cert.KernelIdeal.S100000x64 .f32) (x1 : IVec Cert.KernelIdeal.S2x1200000 32)
    (x2 : IVec Cert.KernelIdeal.S100000 32) (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32) :
    val_main_v93 (F := Ideal) x0 x1 x2 x3 x4 x5 x6
      = catOf (val_main_v51 (F := Ideal) x0 x1 x2 x3 x4) (val_main_v92 (F := Ideal) x0 x1 x2 x3 x4 x5 x6) := rfl

/-- THE SECOND RESULT: the reference's joined sums are the kernel's. -/
theorem out1_agree (x0 : FVec Ideal Cert.KernelIdeal.S100000x64 .f32) (x1 : IVec Cert.KernelIdeal.S2x1200000 32)
    (x2 : IVec Cert.KernelIdeal.S100000 32) (x3 : FVec Ideal Cert.KernelIdeal.S64x64 .f32) (x4 : FVec Ideal Cert.KernelIdeal.S64 .f32)
    (x5 : FVec Ideal Cert.KernelIdeal.S64x64 .f32) (x6 : FVec Ideal Cert.KernelIdeal.S64 .f32) :
    val_main_v93 (F := Ideal) x0 x1 x2 x3 x4 x5 x6
      = catOf (poolOf (layerOf x0 x3 x4 (dinvOf (dstOf x1)) (srcOf x1) (dstOf x1)) x2)
          (poolOf (layerOf (layerOf x0 x3 x4 (dinvOf (dstOf x1)) (srcOf x1) (dstOf x1)) x5 x6 (dinvOf (dstOf x1)) (srcOf x1) (dstOf x1)) x2) := by
  rw [cat_agree, pool1_agree, pool2_agree, out0_agree, mid_agree]

end Cert.Proof.Bridge

end
-- ==== Proof.lean ====
/-
  The proof of `Cert.Claim`: a two-layer graph convolution over 100000 nodes, 1200000 edges and width 64, with
  per-graph sums, as a kernel program of four regions among host operations, against its plain reference.

  Both programs compute the node factors `d = (1 + in-degree)^(-1/2)` from the edge array and, per layer, project
  the input by the weights (`h = x · W`), sum every edge's source row into its target row, add the self loop
  `h · d²` and the bias, and rectify. They differ in where the target node's factor is applied: the reference
  weights every edge by `d src · d dst` before the sum; the kernel scales the source rows by `d src`, sums, and
  scales the SUM by the target's `d` in its combine region. On the extended reals a factor does not distribute
  over a sum in general, but a nonnegative real does, and `d` is one: the count under the inverse square root is
  a natural number plus one. The edges the accumulating scatter lands on row `r` are exactly those whose target
  node is `r`, so the edge weights there carry the common factor `d r`. Hence the layers agree entry by entry, the
  second layer is the same function of the first, and the per-graph sums and their joining are the same operations
  on both sides. Nothing here needs the inputs to be finite.

  The three frames are the generated ones (the reference's is its generated run with the results dropped); the
  idealization rewrote nothing, so `preserves` is trivial.
-/
import proofs.«129485_j137438953659_2_alg».proof.Defs
import proofs.«129485_j137438953659_2_alg».proof.Proof.Gen.Kernel
import proofs.«129485_j137438953659_2_alg».proof.Proof.Gen.Kernel.Skeleton
import proofs.«129485_j137438953659_2_alg».proof.Proof.Gen.Kernel.Launch
import proofs.«129485_j137438953659_2_alg».proof.Proof.Gen.Kernel.Points
import proofs.«129485_j137438953659_2_alg».proof.Proof.Gen.Kernel.Frame
import proofs.«129485_j137438953659_2_alg».proof.Proof.Gen.KernelIdeal
import proofs.«129485_j137438953659_2_alg».proof.Proof.Gen.KernelIdeal.Skeleton
import proofs.«129485_j137438953659_2_alg».proof.Proof.Gen.KernelIdeal.Launch
import proofs.«129485_j137438953659_2_alg».proof.Proof.Gen.KernelIdeal.Points
import proofs.«129485_j137438953659_2_alg».proof.Proof.Gen.KernelIdeal.Frame
import proofs.«129485_j137438953659_2_alg».proof.Proof.Gen.ReferenceIdeal
import proofs.«129485_j137438953659_2_alg».proof.Proof.Gen.Pre_finite_inputs
import proofs.«129485_j137438953659_2_alg».proof.Proof.Gen.ReferenceIdeal.Run
import proofs.«129485_j137438953659_2_alg».proof.Proof.Gen.ReferenceIdeal.Read
import proofs.«129485_j137438953659_2_alg».proof.Proof.KernelRun
import proofs.«129485_j137438953659_2_alg».proof.Proof.KernelFold
import proofs.«129485_j137438953659_2_alg».proof.Proof.Bridge
import Idealize.ShloMosaic.Adequacy
import Idealize.ShloMosaic.Init

noncomputable section

namespace Cert.Proof

open Idealize.ShloMosaic Idealize.SL.Sem

/-- The word-level kernel's frame. -/
theorem frame_p : Cert.frame_Kernel :=
  fun m ρ _ => Cert.Kernel.Gen.frame m ρ

/-- The idealized kernel's frame. -/
theorem frame_pi : Cert.frame_KernelIdeal :=
  fun m ρ _ => Cert.KernelIdeal.Gen.frame m ρ

/-- The reference's frame: its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- The two programs, run from memories agreeing on the arguments, end with equal results. -/
theorem algebraic : Cert.algebraic_KernelIdeal_ReferenceIdeal := by
  intro m ρ m' ρ' _ hagree
  refine ⟨fun c => Cert.KernelIdeal.Fold.H2 m c,
    fun c => Cert.KernelIdeal.Fold.catOf
      (Cert.KernelIdeal.Fold.poolOf (Cert.KernelIdeal.Fold.H1 m c) (Cert.KernelIdeal.Fold.BT m c))
      (Cert.KernelIdeal.Fold.poolOf (Cert.KernelIdeal.Fold.H2 m c) (Cert.KernelIdeal.Fold.BT m c)), ?_, ?_⟩
  · exact (θ_run Cert.KernelIdeal.defs _ _).mono
      (fun r h c => ⟨(h c).1.trans (Cert.KernelIdeal.Fold.W9_v47 m ρ c),
        (h c).2.1.trans (Cert.KernelIdeal.Fold.W9_v51 m ρ c), (h c).2.2⟩)
      (Cert.KernelIdeal.RunValue.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6⟩ := hagree c
      rw [Cert.ReferenceIdeal.Read.val_main_v89_eq, a0, a1, a3, a4, a5, a6]
      exact Cert.Proof.Bridge.out0_agree _ _ _ _ _ _
    · obtain ⟨a0, a1, a2, a3, a4, a5, a6⟩ := hagree c
      rw [Cert.ReferenceIdeal.Read.val_main_v93_eq, a0, a1, a2, a3, a4, a5, a6]
      exact Cert.Proof.Bridge.out1_agree _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
